-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x64 : Shape := ⟨3, ![4, 20000, 64]⟩
abbrev S2x320000 : Shape := ⟨2, ![2, 320000]⟩
abbrev S64x64 : Shape := ⟨2, ![64, 64]⟩
abbrev S64 : Shape := ⟨1, ![64]⟩
abbrev S128x128 : Shape := ⟨2, ![128, 128]⟩
abbrev S_ : Shape := ⟨0, ![]⟩

class Facts : Prop where
  bcast_S_S4x20000x64 : S_.BroadcastsInDim S4x20000x64 (![] : Fin 0 → Fin S4x20000x64.rank)
  reducesTo_S4x20000x64_S_d0_1_2 : S4x20000x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64x64 .f32) (main_arg8 : FVec F S128x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S4x20000x64 .f32) (main_arg1 : IVec S2x320000 32) (main_arg2 : FVec F S64x64 .f32) (main_arg3 : FVec F S64 .f32) (main_arg4 : FVec F S64x64 .f32) (main_arg5 : FVec F S64x64 .f32) (main_arg6 : FVec F S64x64 .f32) (main_arg7 : FVec F S64x64 .f32) (main_arg8 : FVec F S128x128 .f32) : IVec S_ 1 :=
  let main_v0 : FVec F S4x20000x64 .f32 := Host.absf main_arg0
  let main_cst : FVec F S_ .f32 := constant S_ .f32 0x7F800000#32
  let main_v1 : FVec F S4x20000x64 .f32 := broadcastInDim S4x20000x64 ![] bcast_S_S4x20000x64 main_cst
  let main_v2 : IVec S4x20000x64 1 := cmpf .olt main_v0 main_v1
  let main_c : IVec S_ 1 := constantI S_ 1 1#1
  let main_v3 : IVec S_ 1 := (fun x v => Host.reduce IntOp.andi x v reducesTo_S4x20000x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S4x20000x64 : Shape := ⟨3, ![4, 20000, 64]⟩
abbrev S2x320000 : Shape := ⟨2, ![2, 320000]⟩
abbrev S64x64 : Shape := ⟨2, ![64, 64]⟩
abbrev S64 : Shape := ⟨1, ![64]⟩
abbrev S128x128 : Shape := ⟨2, ![128, 128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x4x64 : Shape := ⟨3, ![20000, 4, 64]⟩
abbrev S20000x256 : Shape := ⟨2, ![20000, 256]⟩
abbrev S340000x256 : Shape := ⟨2, ![340000, 256]⟩
abbrev S80000x64 : Shape := ⟨2, ![80000, 64]⟩
abbrev S80000x128 : Shape := ⟨2, ![80000, 128]⟩
abbrev S4000x64 : Shape := ⟨2, ![4000, 64]⟩
abbrev S4000x128 : Shape := ⟨2, ![4000, 128]⟩
abbrev S1x64 : Shape := ⟨2, ![1, 64]⟩
abbrev S4x20000x128 : Shape := ⟨3, ![4, 20000, 128]⟩

abbrev nBuf : Space → Nat
  | .hbm => 74
  | .vmem => 11
  | .smem => 0
  | _ => 0

abbrev bufTy : (tb : Table) → Fin (tcTables nBuf tb) → BufTy
  | .hbm, ⟨0, _⟩ => ⟨S4x20000x64, .f32⟩
  | .hbm, ⟨1, _⟩ => ⟨S2x320000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S128x128, .f32⟩
  | .hbm, ⟨9, _⟩ => ⟨S20000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S1x320000, .i32⟩
  | .hbm, ⟨14, _⟩ => ⟨S320000, .i32⟩
  | .hbm, ⟨15, _⟩ => ⟨S340000, .i32⟩
  | .hbm, ⟨16, _⟩ => ⟨S_, .f32⟩
  | .hbm, ⟨17, _⟩ => ⟨S340000, .f32⟩
  | .hbm, ⟨18, _⟩ => ⟨S_, .f32⟩
  | .hbm, ⟨19, _⟩ => ⟨S20000, .f32⟩
  | .hbm, ⟨20, _⟩ => ⟨S340000x1, .i32⟩
  | .hbm, ⟨21, _⟩ => ⟨S20000, .f32⟩
  | .hbm, ⟨22, _⟩ => ⟨S_, .f32⟩
  | .hbm, ⟨23, _⟩ => ⟨S20000, .f32⟩
  | .hbm, ⟨24, _⟩ => ⟨S20000, .i1⟩
  | .hbm, ⟨25, _⟩ => ⟨S_, .f32⟩
  | .hbm, ⟨26, _⟩ => ⟨S20000, .f32⟩
  | .hbm, ⟨27, _⟩ => ⟨S20000, .f32⟩
  | .hbm, ⟨28, _⟩ => ⟨S_, .f32⟩
  | .hbm, ⟨29, _⟩ => ⟨S_, .f32⟩
  | .hbm, ⟨30, _⟩ => ⟨S20000, .f32⟩
  | .hbm, ⟨31, _⟩ => ⟨S20000, .f32⟩
  | .hbm, ⟨32, _⟩ => ⟨S_, .i32⟩
  | .hbm, ⟨33, _⟩ => ⟨S340000, .i32⟩
  | .hbm, ⟨34, _⟩ => ⟨S340000, .i1⟩
  | .hbm, ⟨35, _⟩ => ⟨S_, .i32⟩
  | .hbm, ⟨36, _⟩ => ⟨S340000, .i32⟩
  | .hbm, ⟨37, _⟩ => ⟨S340000, .i32⟩
  | .hbm, ⟨38, _⟩ => ⟨S340000, .i32⟩
  | .hbm, ⟨39, _⟩ => ⟨S340000x1, .i32⟩
  | .hbm, ⟨40, _⟩ => ⟨S340000, .f32⟩
  | .hbm, ⟨41, _⟩ => ⟨S_, .i32⟩
  | .hbm, ⟨42, _⟩ => ⟨S340000, .i32⟩
  | .hbm, ⟨43, _⟩ => ⟨S340000, .i1⟩
  | .hbm, ⟨44, _⟩ => ⟨S_, .i32⟩
  | .hbm, ⟨45, _⟩ => ⟨S340000, .i32⟩
  | .hbm, ⟨46, _⟩ => ⟨S340000, .i32⟩
  | .hbm, ⟨47, _⟩ => ⟨S340000, .i32⟩
  | .hbm, ⟨48, _⟩ => ⟨S340000x1, .i32⟩
  | .hbm, ⟨49, _⟩ => ⟨S340000, .f32⟩
  | .hbm, ⟨50, _⟩ => ⟨S340000, .f32⟩
  | .hbm, ⟨51, _⟩ => ⟨S20000x4x64, .f32⟩
  | .hbm, ⟨52, _⟩ => ⟨S20000x256, .f32⟩
  | .hbm, ⟨53, _⟩ => ⟨S_, .i32⟩
  | .hbm, ⟨54, _⟩ => ⟨S340000, .i32⟩
  | .hbm, ⟨55, _⟩ => ⟨S340000, .i1⟩
  | .hbm, ⟨56, _⟩ => ⟨S_, .i32⟩
  | .hbm, ⟨57, _⟩ => ⟨S340000, .i32⟩
  | .hbm, ⟨58, _⟩ => ⟨S340000, .i32⟩
  | .hbm, ⟨59, _⟩ => ⟨S340000, .i32⟩
  | .hbm, ⟨60, _⟩ => ⟨S340000x1, .i32⟩
  | .hbm, ⟨61, _⟩ => ⟨S340000x256, .f32⟩
  | .hbm, ⟨62, _⟩ => ⟨S340000x1, .f32⟩
  | .hbm, ⟨63, _⟩ => ⟨S340000x256, .f32⟩
  | .hbm, ⟨64, _⟩ => ⟨S340000x256, .f32⟩
  | .hbm, ⟨65, _⟩ => ⟨S_, .f32⟩
  | .hbm, ⟨66, _⟩ => ⟨S20000x256, .f32⟩
  | .hbm, ⟨67, _⟩ => ⟨S340000x1, .i32⟩
  | .hbm, ⟨68, _⟩ => ⟨S20000x256, .f32⟩
  | .hbm, ⟨69, _⟩ => ⟨S20000x4x64, .f32⟩
  | .hbm, ⟨70, _⟩ => ⟨S4x20000x64, .f32⟩
  | .hbm, ⟨71, _⟩ => ⟨S80000x64, .f32⟩
  | .hbm, ⟨72, _⟩ => ⟨S80000x128, .f32⟩
  | .hbm, ⟨73, _⟩ => ⟨S4x20000x128, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | _, _ => ⟨S4x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  transposes_S4x20000x64_S20000x4x64_1_0_2 : S4x20000x64.Transposes [1, 0, 2] S20000x4x64
  shapeCasts_S20000x4x64_S20000x256 : S20000x4x64.ShapeCasts S20000x256
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  shapeCasts_S20000x256_S20000x4x64 : S20000x256.ShapeCasts S20000x4x64
  transposes_S20000x4x64_S4x20000x64_1_0_2 : S20000x4x64.Transposes [1, 0, 2] S4x20000x64
  shapeCasts_S4x20000x64_S80000x64 : S4x20000x64.ShapeCasts S80000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S128x128_S128x128_0_0 : ∀ a, (![0, 0] : Fin 2 → Nat) a + S128x128.size a ≤ S128x128.size a
  h_S128x128 : 0 < S128x128.numel
  concatenates_S4000x64_S4000x64_S4000x128_d1 : Shape.Concatenates [S4000x64, S4000x64] S4000x128 1
  inb_S4000x128_S4000x128_0_0 : ∀ a, (![0, 0] : Fin 2 → Nat) a + S4000x128.size a ≤ S4000x128.size a
  h_S4000x128 : 0 < S4000x128.numel
  shapeCasts_S80000x128_S4x20000x128 : S80000x128.ShapeCasts S4x20000x128
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S4000x64_S64x64_S4000x64_1_1_0_0_n_n_wf : DotDims.WF S4000x64 S64x64 S4000x64 [1] [1] [0] [0] [] []
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S80000x64.size a
  hwx0_0 : ∀ i : grid0.Coords, EltTy.bits .f32 = 32 ∨ (Rect.block (s := S80000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S80000x128.size a
  hwx0_8 : ∀ i : grid0.Coords, EltTy.bits .f32 = 32 ∨ (Rect.block (s := S80000x128) S4000x128.size (cc0_transform_8 i) (hinb0_8 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S4000x64_S64x64_S4000x64_1_1_0_0_n_n : DotDims S4000x64 S64x64 S4000x64 where
  lhsContracting := [1]
  rhsContracting := [1]
  lhsNonContracting := [0]
  rhsNonContracting := [0]
  lhsBatch := []
  rhsBatch := []
  wf := dot_S4000x64_S64x64_S4000x64_1_1_0_0_n_n_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v48) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x20000x64 : Shape := ⟨3, ![4, 20000, 64]⟩
abbrev S2x320000 : Shape := ⟨2, ![2, 320000]⟩
abbrev S64x64 : Shape := ⟨2, ![64, 64]⟩
abbrev S64 : Shape := ⟨1, ![64]⟩
abbrev S128x128 : Shape := ⟨2, ![128, 128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S4x340000x64 : Shape := ⟨3, ![4, 340000, 64]⟩
abbrev S1x340000x1 : Shape := ⟨3, ![1, 340000, 1]⟩
abbrev S340000x4x64 : Shape := ⟨3, ![340000, 4, 64]⟩
abbrev S20000x4x64 : Shape := ⟨3, ![20000, 4, 64]⟩
abbrev S1x1x64 : Shape := ⟨3, ![1, 1, 64]⟩
abbrev S4x20000x128 : Shape := ⟨3, ![4, 20000, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x20000x64, .f32⟩
  | .hbm, ⟨1, _⟩ => ⟨S2x320000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S128x128, .f32⟩
  | .hbm, ⟨9, _⟩ => ⟨S20000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S1x320000, .i32⟩
  | .hbm, ⟨14, _⟩ => ⟨S320000, .i32⟩
  | .hbm, ⟨15, _⟩ => ⟨S340000, .i32⟩
  | .hbm, ⟨16, _⟩ => ⟨S4x20000x64, .f32⟩
  | .hbm, ⟨17, _⟩ => ⟨S_, .f32⟩
  | .hbm, ⟨18, _⟩ => ⟨S340000, .f32⟩
  | .hbm, ⟨19, _⟩ => ⟨S_, .f32⟩
  | .hbm, ⟨20, _⟩ => ⟨S20000, .f32⟩
  | .hbm, ⟨21, _⟩ => ⟨S340000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .i1⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .f32⟩
  | .hbm, ⟨30, _⟩ => ⟨S_, .f32⟩
  | .hbm, ⟨31, _⟩ => ⟨S20000, .f32⟩
  | .hbm, ⟨32, _⟩ => ⟨S20000, .f32⟩
  | .hbm, ⟨33, _⟩ => ⟨S_, .i32⟩
  | .hbm, ⟨34, _⟩ => ⟨S340000, .i32⟩
  | .hbm, ⟨35, _⟩ => ⟨S340000, .i1⟩
  | .hbm, ⟨36, _⟩ => ⟨S_, .i32⟩
  | .hbm, ⟨37, _⟩ => ⟨S340000, .i32⟩
  | .hbm, ⟨38, _⟩ => ⟨S340000, .i32⟩
  | .hbm, ⟨39, _⟩ => ⟨S340000, .i32⟩
  | .hbm, ⟨40, _⟩ => ⟨S340000x1, .i32⟩
  | .hbm, ⟨41, _⟩ => ⟨S340000, .f32⟩
  | .hbm, ⟨42, _⟩ => ⟨S_, .i32⟩
  | .hbm, ⟨43, _⟩ => ⟨S340000, .i32⟩
  | .hbm, ⟨44, _⟩ => ⟨S340000, .i1⟩
  | .hbm, ⟨45, _⟩ => ⟨S_, .i32⟩
  | .hbm, ⟨46, _⟩ => ⟨S340000, .i32⟩
  | .hbm, ⟨47, _⟩ => ⟨S340000, .i32⟩
  | .hbm, ⟨48, _⟩ => ⟨S340000, .i32⟩
  | .hbm, ⟨49, _⟩ => ⟨S340000x1, .i32⟩
  | .hbm, ⟨50, _⟩ => ⟨S340000, .f32⟩
  | .hbm, ⟨51, _⟩ => ⟨S340000, .f32⟩
  | .hbm, ⟨52, _⟩ => ⟨S_, .i32⟩
  | .hbm, ⟨53, _⟩ => ⟨S340000, .i32⟩
  | .hbm, ⟨54, _⟩ => ⟨S340000, .i1⟩
  | .hbm, ⟨55, _⟩ => ⟨S_, .i32⟩
  | .hbm, ⟨56, _⟩ => ⟨S340000, .i32⟩
  | .hbm, ⟨57, _⟩ => ⟨S340000, .i32⟩
  | .hbm, ⟨58, _⟩ => ⟨S340000, .i32⟩
  | .hbm, ⟨59, _⟩ => ⟨S340000x1, .i32⟩
  | .hbm, ⟨60, _⟩ => ⟨S4x340000x64, .f32⟩
  | .hbm, ⟨61, _⟩ => ⟨S1x340000x1, .f32⟩
  | .hbm, ⟨62, _⟩ => ⟨S4x340000x64, .f32⟩
  | .hbm, ⟨63, _⟩ => ⟨S4x340000x64, .f32⟩
  | .hbm, ⟨64, _⟩ => ⟨S340000x4x64, .f32⟩
  | .hbm, ⟨65, _⟩ => ⟨S_, .f32⟩
  | .hbm, ⟨66, _⟩ => ⟨S20000x4x64, .f32⟩
  | .hbm, ⟨67, _⟩ => ⟨S340000x1, .i32⟩
  | .hbm, ⟨68, _⟩ => ⟨S20000x4x64, .f32⟩
  | .hbm, ⟨69, _⟩ => ⟨S4x20000x64, .f32⟩
  | .hbm, ⟨70, _⟩ => ⟨S1x1x64, .f32⟩
  | .hbm, ⟨71, _⟩ => ⟨S4x20000x64, .f32⟩
  | .hbm, ⟨72, _⟩ => ⟨S4x20000x64, .f32⟩
  | .hbm, ⟨73, _⟩ => ⟨S4x20000x64, .f32⟩
  | .hbm, ⟨74, _⟩ => ⟨S4x20000x64, .f32⟩
  | .hbm, ⟨75, _⟩ => ⟨S_, .f32⟩
  | .hbm, ⟨76, _⟩ => ⟨S4x20000x64, .f32⟩
  | .hbm, ⟨77, _⟩ => ⟨S4x20000x64, .f32⟩
  | .hbm, ⟨78, _⟩ => ⟨S_, .f32⟩
  | .hbm, ⟨79, _⟩ => ⟨S4x20000x64, .f32⟩
  | .hbm, ⟨80, _⟩ => ⟨S4x20000x64, .f32⟩
  | .hbm, ⟨81, _⟩ => ⟨S4x20000x64, .f32⟩
  | .hbm, ⟨82, _⟩ => ⟨S4x20000x64, .f32⟩
  | .hbm, ⟨83, _⟩ => ⟨S4x20000x64, .f32⟩
  | .hbm, ⟨84, _⟩ => ⟨S4x20000x64, .f32⟩
  | .hbm, ⟨85, _⟩ => ⟨S4x20000x128, .f32⟩
  | .hbm, ⟨86, _⟩ => ⟨S4x20000x128, .f32⟩
  | .hbm, ⟨87, _⟩ => ⟨S_, .f32⟩
  | .hbm, ⟨88, _⟩ => ⟨S4x20000x128, .f32⟩
  | .hbm, ⟨89, _⟩ => ⟨S4x20000x128, .f32⟩
  | _, _ => ⟨S4x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000_S1x340000x1_1 : S340000.BroadcastsInDim S1x340000x1 (![1] : Fin 1 → Fin S1x340000x1.rank)
  bcast_S1x340000x1_S4x340000x64_0_1_2 : S1x340000x1.BroadcastsInDim S4x340000x64 (![0, 1, 2] : Fin 3 → Fin S4x340000x64.rank)
  transposes_S4x340000x64_S340000x4x64_1_0_2 : S4x340000x64.Transposes [1, 0, 2] S340000x4x64
  bcast_S_S20000x4x64 : S_.BroadcastsInDim S20000x4x64 (![] : Fin 0 → Fin S20000x4x64.rank)
  transposes_S20000x4x64_S4x20000x64_1_0_2 : S20000x4x64.Transposes [1, 0, 2] S4x20000x64
  bcast_S64_S1x1x64_2 : S64.BroadcastsInDim S1x1x64 (![2] : Fin 1 → Fin S1x1x64.rank)
  bcast_S1x1x64_S4x20000x64_0_1_2 : S1x1x64.BroadcastsInDim S4x20000x64 (![0, 1, 2] : Fin 3 → Fin S4x20000x64.rank)
  bcast_S_S4x20000x64 : S_.BroadcastsInDim S4x20000x64 (![] : Fin 0 → Fin S4x20000x64.rank)
  concatenates_S4x20000x64_S4x20000x64_S4x20000x128_d2 : Shape.Concatenates [S4x20000x64, S4x20000x64] S4x20000x128 2
  bcast_S_S4x20000x128 : S_.BroadcastsInDim S4x20000x128 (![] : Fin 0 → Fin S4x20000x128.rank)
  dot_S4x20000x64_S64x64_S4x20000x64_2_1_01_0_n_n_wf : DotDims.WF S4x20000x64 S64x64 S4x20000x64 [2] [1] [0, 1] [0] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S4x20000x64_S340000x1_S4x340000x64_02_1_n_n_1_1_4164_wf : GatherDims.WF S4x20000x64 S340000x1 S4x340000x64 [0, 2] [1] [] [1] [] 1 ![4, 1, 64]
  scatter_S20000x4x64_S340000x1_S340000x4x64_12_0_0_1_wf : ScatterDims.WF S20000x4x64 S340000x1 S340000x4x64 [1, 2] [0] [0] 1
  dot_S4x20000x128_S128x128_S4x20000x128_2_1_01_0_n_n_wf : DotDims.WF S4x20000x128 S128x128 S4x20000x128 [2] [1] [0, 1] [0] [] []

variable [Facts₀]

def dot_S4x20000x64_S64x64_S4x20000x64_2_1_01_0_n_n : DotDims S4x20000x64 S64x64 S4x20000x64 where
  lhsContracting := [2]
  rhsContracting := [1]
  lhsNonContracting := [0, 1]
  rhsNonContracting := [0]
  lhsBatch := []
  rhsBatch := []
  wf := dot_S4x20000x64_S64x64_S4x20000x64_2_1_01_0_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S4x20000x64_S340000x1_S4x340000x64_02_1_n_n_1_1_4164 : GatherDims S4x20000x64 S340000x1 S4x340000x64 where
  offsetDims := [0, 2]
  collapsedSliceDims := [1]
  operandBatchingDims := []
  startIndicesBatchingDims := []
  startIndexMap := [1]
  indexVectorDim := 1
  sliceSizes := ![4, 1, 64]
  wf := gather_S4x20000x64_S340000x1_S4x340000x64_02_1_n_n_1_1_4164_wf
def scatter_S20000x4x64_S340000x1_S340000x4x64_12_0_0_1 : ScatterDims S20000x4x64 S340000x1 S340000x4x64 where
  updateWindowDims := [1, 2]
  insertedWindowDims := [0]
  scatterDimsToOperandDims := [0]
  indexVectorDim := 1
  wf := scatter_S20000x4x64_S340000x1_S340000x4x64_12_0_0_1_wf
def dot_S4x20000x128_S128x128_S4x20000x128_2_1_01_0_n_n : DotDims S4x20000x128 S128x128 S4x20000x128 where
  lhsContracting := [2]
  rhsContracting := [1]
  lhsNonContracting := [0, 1]
  rhsNonContracting := [0]
  lhsBatch := []
  rhsBatch := []
  wf := dot_S4x20000x128_S128x128_S4x20000x128_2_1_01_0_n_n_wf

class Facts : Prop extends Facts₀ where

variable [Facts]
-- ==== Proof.Spec.lean ====
/-
  A graph-convolution layer followed by a small two-branch perceptron, as plain functions of arrays of extended reals.

  For every node n and batch b, the messages of the edges e that land on n are added up: the source row of e, scaled by
  the weight of e. A linear map W applied before the aggregation, or after it, gives the same row when everything is
  finite: both are the double sum over the edges landing on n and over the inner position k of
  x (source e, k) * weight e * W (o, k). After the bias, the logistic function, two parallel pairs of dense layers,
  their concatenation, a last dense layer and the positive part follow, row by row.
-/
import Idealize.ShloMosaic.PureOps.Ideal.Laws
import Idealize.ShloMosaic.Lib.ValueIdx

noncomputable section

open scoped BigOperators

namespace Cert.GraphLayer

open Idealize.ShloMosaic Idealize.ShloMosaic.ValueIdx

/-- A dense layer against the ROWS of the weights: output position o is the sum over k of v k * W (o, k). -/
def dense {K N : ℕ} (W : (⟨2, ![N, K]⟩ : Shape).Idx → EReal) (v : Fin K → EReal) : Fin N → EReal :=
  fun o => ∑ k : Fin K, v k * W (ix2 o k)

/-- Two rows of length 64 side by side. -/
def cat (u l : Fin 64 → EReal) : Fin 128 → EReal :=
  fun j => if h : j.val < 64 then u ⟨j.val, h⟩ else l ⟨j.val - 64, by have := j.isLt; omega⟩

/-- What follows the aggregation on one row: the logistic function, the upper and lower pairs of dense layers, their
    concatenation, the last dense layer, and the maximum with the zero word. -/
def head (W4 W5 W6 W7 : (⟨2, ![64, 64]⟩ : Shape).Idx → EReal) (W8 : (⟨2, ![128, 128]⟩ : Shape).Idx → EReal)
    (pre : Fin 64 → EReal) : Fin 128 → EReal :=
  fun o => max (dense W8 (cat (dense W5 (dense W4 fun c => Ideal.logistic (pre c)))
      (dense W7 (dense W6 fun c => Ideal.logistic (pre c)))) o) (Ideal.ofBits .f32 0x00000000#32)

/-- The aggregation at node n: the starting value plus the sum, over the edges whose target is n, of the edge's value
    times the edge's weight. -/
def aggregate {E : ℕ} (z : EReal) (tgt : Fin E → ℤ) (wt : Fin E → EReal) (val : Fin E → EReal) (n : ℕ) : EReal :=
  z + ∑ e ∈ Finset.univ.filter (fun e : Fin E => tgt e = (n : ℤ)), val e * wt e

/-- The layer with the linear map applied AFTER the aggregation (the kernel's order). -/
def layerAfter {E : ℕ} (X : (⟨3, ![4, 20000, 64]⟩ : Shape).Idx → EReal) (src : Fin E → Fin 20000) (tgt : Fin E → ℤ)
    (wt : Fin E → EReal) (W2 W4 W5 W6 W7 : (⟨2, ![64, 64]⟩ : Shape).Idx → EReal) (bias : (⟨1, ![64]⟩ : Shape).Idx → EReal)
    (W8 : (⟨2, ![128, 128]⟩ : Shape).Idx → EReal) (b : Fin 4) (n : Fin 20000) : Fin 128 → EReal :=
  head W4 W5 W6 W7 W8 fun c =>
    dense W2 (fun k => aggregate (Ideal.ofBits .f32 0x00000000#32) tgt wt (fun e => X (ix3 b (src e) k)) n.val) c + bias (ix1 c)

/-- The layer with the linear map applied BEFORE the aggregation (the reference's order). -/
def layerBefore {E : ℕ} (X : (⟨3, ![4, 20000, 64]⟩ : Shape).Idx → EReal) (src : Fin E → Fin 20000) (tgt : Fin E → ℤ)
    (wt : Fin E → EReal) (W2 W4 W5 W6 W7 : (⟨2, ![64, 64]⟩ : Shape).Idx → EReal) (bias : (⟨1, ![64]⟩ : Shape).Idx → EReal)
    (W8 : (⟨2, ![128, 128]⟩ : Shape).Idx → EReal) (b : Fin 4) (n : Fin 20000) : Fin 128 → EReal :=
  head W4 W5 W6 W7 W8 fun c =>
    aggregate (Ideal.ofBits .f32 0x00000000#32) tgt wt (fun e => dense W2 (fun k => X (ix3 b (src e) k)) c) n.val + bias (ix1 c)

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The linear map commutes with the weighted sum over a set of edges, on the reals. -/
theorem sum_weighted_real {ι κ : Type*} [Fintype κ] (S : Finset ι) (x : ι → κ → ℝ) (wt : ι → ℝ) (w : κ → ℝ) :
    ∑ k : κ, (∑ e ∈ S, x e k * wt e) * w k = ∑ e ∈ S, (∑ k : κ, x e k * w k) * wt e := by
  simp only [Finset.sum_mul]
  rw [Finset.sum_comm]
  refine Finset.sum_congr rfl fun e _ => Finset.sum_congr rfl fun k _ => ?_
  ring

/-- The same on the extended reals, for finite entries, with a zero starting value on both sides. -/
theorem aggregate_dense {E K : ℕ} (tgt : Fin E → ℤ) (wt : Fin E → EReal) (x : Fin E → Fin K → EReal) (w : Fin K → EReal) (n : ℕ)
    (hx : ∀ e k, ∃ r : ℝ, x e k = r) (hwt : ∀ e, ∃ r : ℝ, wt e = r) (hw : ∀ k, ∃ r : ℝ, w k = r) :
    ∑ k : Fin K, aggregate (Ideal.ofBits .f32 0x00000000#32) tgt wt (fun e => x e k) n * w k
      = aggregate (Ideal.ofBits .f32 0x00000000#32) tgt wt (fun e => ∑ k : Fin K, x e k * w k) n := by
  choose x' hx' using hx
  choose wt' hwt' using hwt
  choose w' hw' using hw
  unfold aggregate
  simp only [Ideal.ofBits_zero_f32, zero_add, hx', hwt', hw', ← EReal.coe_mul, ← coe_sum]
  exact congrArg _ (sum_weighted_real _ x' wt' w')

/-- The two orders give the same row when the features, the edge weights and the first weight matrix are finite. -/
theorem layerAfter_eq_layerBefore {E : ℕ} (X : (⟨3, ![4, 20000, 64]⟩ : Shape).Idx → EReal) (src : Fin E → Fin 20000) (tgt : Fin E → ℤ)
    (wt : Fin E → EReal) (W2 W4 W5 W6 W7 : (⟨2, ![64, 64]⟩ : Shape).Idx → EReal) (bias : (⟨1, ![64]⟩ : Shape).Idx → EReal)
    (W8 : (⟨2, ![128, 128]⟩ : Shape).Idx → EReal) (b : Fin 4) (n : Fin 20000)
    (hX : ∀ i, ∃ r : ℝ, X i = r) (hwt : ∀ e, ∃ r : ℝ, wt e = r) (hW2 : ∀ i, ∃ r : ℝ, W2 i = r) :
    layerAfter X src tgt wt W2 W4 W5 W6 W7 bias W8 b n = layerBefore X src tgt wt W2 W4 W5 W6 W7 bias W8 b n := by
  unfold layerAfter layerBefore
  congr 1
  funext c
  congr 1
  exact aggregate_dense tgt wt (fun e k => X (ix3 b (src e) k)) (fun k => W2 (ix2 c k)) n.val
    (fun e k => hX _) hwt (fun k => hW2 _)

end Cert.GraphLayer

end
-- ==== Proof.LibDotRows.lean ====
/-
  A matrix product against the rows of the right operand, read at a row and a column. For dimension numbers that
  contract the second axis of BOTH operands and batch nothing (an M x K array times the transpose of an N x K
  array) — stated by the four coordinate facts of the operand indices — the contraction at (r, c) is the finite sum
  over k of left (r, k) * right (c, k). A matrix-unit product into the zero accumulator is that sum at the extended
  reals, whatever formats the operands were rounded to on the way.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.ValueIdx

open Idealize.ShloMosaic

/-- The facts that say a dot's dimension numbers are those of an M x K array times the transpose of an N x K one. -/
structure RowsDot {M K N : ℕ} (d : DotDims (⟨2, ![M, K]⟩ : Shape) (⟨2, ![N, K]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

/-- The contraction against the right operand's rows at (r, c), re-indexed by the inner position k. -/
theorem contraction_rows_ix2 {M K N : ℕ} {d : DotDims (⟨2, ![M, K]⟩ : Shape) (⟨2, ![N, K]⟩ : Shape) (⟨2, ![M, N]⟩ : Shape)}
    (hd : RowsDot d) (lhs : (⟨2, ![M, K]⟩ : Shape).Idx → EReal) (rhs : (⟨2, ![N, K]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 c k) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 c k := funext fun a => Fin.ext (by
    match a with
    | ⟨0, _⟩ => exact hd.r0 _ _
    | ⟨1, _⟩ => exact (hd.r1 _ _).trans hk)
  rw [el, er]

/-- A matrix-unit product of an M x K array with the rows of an N x K array into zeros, at (r, c): the sum over the
    K inner positions. -/
theorem matmul_zero_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 c k) : EReal) := by
  rw [Ideal.matmul_constant_zero_apply]
  exact contraction_rows_ix2 hd lhs rhs r c

/-- A dense layer against the rows of the weights: the product into zeros plus a bias vector recast as one row and
    broadcast down the rows, at (p, q), is the sum over the inner position plus the bias at q. -/
theorem dense_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (x : FVec Ideal (⟨2, ![M, K]⟩ : Shape) φ₁) (w : FVec Ideal (⟨2, ![N, K]⟩ : Shape) φ₂) (b : FVec Ideal (⟨1, ![N]⟩ : Shape) .f32)
    (h1 : (⟨1, ![N]⟩ : Shape).ShapeCasts ⟨2, ![1, N]⟩) (h2 : (⟨2, ![1, N]⟩ : Shape).Broadcasts ⟨2, ![M, N]⟩) (p : Fin M) (q : Fin N) :
    addf (matmul d prec x w (constant (⟨2, ![M, N]⟩ : Shape) .f32 0x00000000#32))
        (broadcastTo (⟨2, ![M, N]⟩ : Shape) (shapeCast (⟨2, ![1, N]⟩ : Shape) b h1) h2) (ix2 p q)
      = (∑ k : Fin K, (x (ix2 p k) : EReal) * (w (ix2 q k) : EReal)) + (b (ix1 q) : EReal) := by
  show FloatOps.matmul d prec x w (constant (⟨2, ![M, N]⟩ : Shape) .f32 0x00000000#32) (ix2 p q)
      + broadcastTo (⟨2, ![M, N]⟩ : Shape) (shapeCast (⟨2, ![1, N]⟩ : Shape) b h1) h2 (ix2 p q) = _
  rw [broadcastTo_1b_ab_apply, shapeCast_a_1a_apply, matmul_zero_rows_ix2 hd]

end Idealize.ShloMosaic.ValueIdx

end
-- ==== Proof.KernelRow.lean ====
/-
  The kernel body's arithmetic read at one entry of the output block. The body is a chain of matrix products against
  the ROWS of the weights (each contracts the second axis of both operands), a bias broadcast down the rows, the
  logistic function, two parallel pairs of products, their concatenation side by side, a last product and the
  maximum with zero. At the extended reals every change of format is the identity, so the entry at row p and column o
  is the row function of the specification applied to row p of the input block.
-/
import proofs.«179696_j50448685859377_2_alg».proof.Proof.Gen.KernelIdeal.Skeleton
import proofs.«179696_j50448685859377_2_alg».proof.Proof.Spec
import proofs.«179696_j50448685859377_2_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRow

open Idealize.ShloMosaic Idealize.ShloMosaic.ValueIdx Idealize.ShloMosaic.TcCoe Cert.KernelIdeal Cert.KernelIdeal.Gen

/-- The 4000 x 64 by 64 x 64 product contracts the second axis of both operands. -/
theorem rows64 : RowsDot dot_S4000x64_S64x64_S4000x64_1_1_0_0_n_n where
  rank := rfl
  size := rfl
  l0 := fun j q => by
    unfold DotDims.lhsIdx
    rw [dif_neg (show ¬(0 : Fin S4000x64.rank) ∈ dot_S4000x64_S64x64_S4000x64_1_1_0_0_n_n.lhsBatch by decide),
      dif_pos (show (0 : Fin S4000x64.rank) ∈ dot_S4000x64_S64x64_S4000x64_1_1_0_0_n_n.lhsNonContracting by decide)]
    rfl
  l1 := fun j q => dot_S4000x64_S64x64_S4000x64_1_1_0_0_n_n.lhsIdx_val_of_single rfl j q
  r0 := fun j q => by
    unfold DotDims.rhsIdx
    rw [dif_neg (show ¬(0 : Fin S64x64.rank) ∈ dot_S4000x64_S64x64_S4000x64_1_1_0_0_n_n.rhsBatch by decide),
      dif_pos (show (0 : Fin S64x64.rank) ∈ dot_S4000x64_S64x64_S4000x64_1_1_0_0_n_n.rhsNonContracting by decide)]
    rfl
  r1 := fun j q => dot_S4000x64_S64x64_S4000x64_1_1_0_0_n_n.rhsIdx_val_of_single rfl j q

/-- The 4000 x 128 by 128 x 128 product contracts the second axis of both operands. -/
theorem rows128 : RowsDot dot_S4000x128_S128x128_S4000x128_1_1_0_0_n_n where
  rank := rfl
  size := rfl
  l0 := fun j q => by
    unfold DotDims.lhsIdx
    rw [dif_neg (show ¬(0 : Fin S4000x128.rank) ∈ dot_S4000x128_S128x128_S4000x128_1_1_0_0_n_n.lhsBatch by decide),
      dif_pos (show (0 : Fin S4000x128.rank) ∈ dot_S4000x128_S128x128_S4000x128_1_1_0_0_n_n.lhsNonContracting by decide)]
    rfl
  l1 := fun j q => dot_S4000x128_S128x128_S4000x128_1_1_0_0_n_n.lhsIdx_val_of_single rfl j q
  r0 := fun j q => by
    unfold DotDims.rhsIdx
    rw [dif_neg (show ¬(0 : Fin S128x128.rank) ∈ dot_S4000x128_S128x128_S4000x128_1_1_0_0_n_n.rhsBatch by decide),
      dif_pos (show (0 : Fin S128x128.rank) ∈ dot_S4000x128_S128x128_S4000x128_1_1_0_0_n_n.rhsNonContracting by decide)]
    rfl
  r1 := fun j q => dot_S4000x128_S128x128_S4000x128_1_1_0_0_n_n.rhsIdx_val_of_single rfl j q

/-- A product of a 4000 x 64 block with the rows of 64 x 64 weights into zeros, at (p, c): the dense layer of row p. -/
theorem layer64_apply {φ₁ φ₂ : FTy} (x : FVec Ideal S4000x64 φ₁) (w : FVec Ideal S64x64 φ₂) (p : Fin 4000) (c : Fin 64) :
    matmul dot_S4000x64_S64x64_S4000x64_1_1_0_0_n_n none x w (constant S4000x64 .f32 0x00000000#32) (ix2 p c)
      = Cert.GraphLayer.dense w (fun k => x (ix2 p k)) c :=
  matmul_zero_rows_ix2 rows64 none x w p c

/-- A product of a 4000 x 128 block with the rows of 128 x 128 weights into zeros, at (p, o): the dense layer of row p. -/
theorem layer128_apply {φ₁ φ₂ : FTy} (x : FVec Ideal S4000x128 φ₁) (w : FVec Ideal S128x128 φ₂) (p : Fin 4000) (o : Fin 128) :
    matmul dot_S4000x128_S128x128_S4000x128_1_1_0_0_n_n none x w (constant S4000x128 .f32 0x00000000#32) (ix2 p o)
      = Cert.GraphLayer.dense w (fun k => x (ix2 p k)) o :=
  matmul_zero_rows_ix2 rows128 none x w p o

/-- Two 4000 x 64 blocks side by side, at (p, j): the two rows p side by side, at j. -/
theorem cat_apply (u l : FVec Ideal S4000x64 .f32) (p : Fin 4000) (j : Fin 128) :
    concatenate S4000x128 1 [⟨S4000x64, u⟩, ⟨S4000x64, l⟩] concatenates_S4000x64_S4000x64_S4000x128_d1 (ix2 p j)
      = Cert.GraphLayer.cat (fun c => u (ix2 p c)) (fun c => l (ix2 p c)) j := by
  unfold Cert.GraphLayer.cat
  by_cases h : j.val < 64
  · rw [dif_pos h]
    refine concatenate_pair_apply_left 1 u l _ (ix2 p j) rfl (ix2 p ⟨j.val, h⟩) (fun b => ?_)
    match b with
    | ⟨0, _⟩ => rfl
    | ⟨1, _⟩ => rfl
  · rw [dif_neg h]
    refine concatenate_pair_apply_right 1 u l _ (ix2 p j) rfl rfl (ix2 p ⟨j.val - 64, by have := j.isLt; omega⟩) (fun b hb => ?_) ?_
    · match b with
      | ⟨0, _⟩ => rfl
      | ⟨1, _⟩ => exact absurd rfl hb
    · show j.val - 64 + 64 = j.val
      omega

/-- The hidden layer at (p, c): the logistic function of the first dense layer of row p plus the bias at c. -/
theorem hidden_apply (x : FVec Ideal S4000x64 .f32) (w : FVec Ideal S64x64 .f32) (b : FVec Ideal S64 .f32) (p : Fin 4000) (c : Fin 64) :
    truncf .bf16 (logistic (addf
        (matmul dot_S4000x64_S64x64_S4000x64_1_1_0_0_n_n none
          (truncf .bf16 (shapeCast S4000x64 x shapeCasts_S4000x64_S4000x64) bitsLt_bf16_f32)
          (truncf .bf16 w bitsLt_bf16_f32) (constant S4000x64 .f32 0x00000000#32))
        (broadcastTo S4000x64 (shapeCast S1x64 b shapeCasts_S64_S1x64) broadcasts_S1x64_S4000x64))) bitsLt_bf16_f32 (ix2 p c)
      = Ideal.logistic (Cert.GraphLayer.dense w (fun k => x (ix2 p k)) c + b (ix1 c)) := by
  rw [shapeCast_self]
  show Ideal.logistic (addf
        (matmul dot_S4000x64_S64x64_S4000x64_1_1_0_0_n_n none (truncf .bf16 x bitsLt_bf16_f32)
          (truncf .bf16 w bitsLt_bf16_f32) (constant S4000x64 .f32 0x00000000#32))
        (broadcastTo S4000x64 (shapeCast S1x64 b shapeCasts_S64_S1x64) broadcasts_S1x64_S4000x64) (ix2 p c)) = _
  rw [dense_rows_ix2 rows64]
  rfl

/-- A pair of products, one after the other, at (p, c): the second dense layer of the first dense layer of row p. -/
theorem pair_apply {φ : FTy} (x : FVec Ideal S4000x64 φ) (wa wb : Vec Ideal S64x64 .f32) (p : Fin 4000) (c : Fin 64) :
    matmul dot_S4000x64_S64x64_S4000x64_1_1_0_0_n_n none
        (truncf .bf16 (matmul dot_S4000x64_S64x64_S4000x64_1_1_0_0_n_n none x (truncf .bf16 wa bitsLt_bf16_f32)
          (constant S4000x64 .f32 0x00000000#32)) bitsLt_bf16_f32)
        (truncf .bf16 wb bitsLt_bf16_f32) (constant S4000x64 .f32 0x00000000#32) (ix2 p c)
      = Cert.GraphLayer.dense wb (Cert.GraphLayer.dense wa (fun k => x (ix2 p k))) c := by
  rw [layer64_apply]
  exact congrArg (fun v : Fin 64 → EReal => Cert.GraphLayer.dense wb v c)
    (funext fun k => layer64_apply x (truncf .bf16 wa bitsLt_bf16_f32) p k)

/-- THE BODY AT (p, o): the row function of the specification on the first dense layer of row p plus the bias. -/
theorem pay_apply (v0 : Vec Ideal S4000x64 .f32) (v3 : Vec Ideal S64x64 .f32) (v6 : Vec Ideal S64 .f32)
    (v12 v14 v16 v18 : Vec Ideal S64x64 .f32) (v20 : Vec Ideal S128x128 .f32) (p : Fin 4000) (o : Fin 128) :
    k0_pay1 (F := Ideal) v0 v3 v6 v12 v14 v16 v18 v20 (ix2 p o)
      = Cert.GraphLayer.head v12 v14 v16 v18 v20
          (fun c => Cert.GraphLayer.dense v3 (fun k => v0 (ix2 p k)) c + v6 (ix1 c)) o := by
  unfold k0_pay1
  rw [maximumf_apply, broadcast_apply, layer128_apply]
  unfold Cert.GraphLayer.head
  refine congrArg₂ max (congrArg (fun v : Fin 128 → EReal => Cert.GraphLayer.dense v20 v o) (funext fun k => ?_)) rfl
  rw [truncf_apply, cat_apply]
  refine congrArg₂ (fun u l : Fin 64 → EReal => Cert.GraphLayer.cat u l k) (funext fun c => ?_) (funext fun c => ?_)
  · rw [pair_apply]
    exact congrArg (fun v : Fin 64 → EReal => Cert.GraphLayer.dense v14 (Cert.GraphLayer.dense v12 v) c)
      (funext fun k' => hidden_apply v0 v3 v6 p k')
  · rw [pair_apply]
    exact congrArg (fun v : Fin 64 → EReal => Cert.GraphLayer.dense v18 (Cert.GraphLayer.dense v16 v) c)
      (funext fun k' => hidden_apply v0 v3 v6 p k')

end Cert.KernelRow

end
-- ==== Proof.EdgeDims.lean ====
/-
  The two scatter-adds and the two row gathers of the two programs, read at an index. Both programs add edge messages
  into node rows with one [340000, 1] column of target indices, and gather source rows with one [340000, 1] column of
  source indices, but in different layouts: the kernel on [20000, 256] and [340000, 256] arrays, the reference on
  [20000, 4, 64], [340000, 4, 64] and [4, 20000, 64], [4, 340000, 64]. Read through their dimension numbers the layouts
  do not matter: an update lands on a node row exactly when the edge's target index, read signed and NOT clamped, is that
  node, and it keeps its position inside the row; a gathered row is the one the edge's source index names, read signed
  and clamped into the node range, position by position. So a scatter-add at one entry is the operand there plus the
  sum over the edges landing on that node of the update's entry, and a gather at one entry is one entry of the operand.
-/
import proofs.«179696_j50448685859377_2_alg».proof.KernelIdeal
import proofs.«179696_j50448685859377_2_alg».proof.ReferenceIdeal
import Idealize.ShloMosaic.Lib.ValueIdx
import Idealize.ShloMosaic.PureOps.Ideal.Laws

noncomputable section

open scoped BigOperators

namespace Cert.EdgeDims

open Idealize.ShloMosaic Idealize.ShloMosaic.ValueIdx

/-- the source row an edge reads: its start index read signed, clamped into the node range -/
def srcRow (idx : IVec (⟨2, ![340000, 1]⟩ : Shape) 32) (e : Fin 340000) : Fin 20000 :=
  ⟨min (idx (ix2 e (0 : Fin 1))).toInt.toNat 19999, by omega⟩

/-- An update lands on operand index `i` exactly when, on every axis, start plus window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro H
      funext a
      refine Fin.ext ?_
      show (d.start j idx a + (d.window j a : ℤ)).toNat = (i a).val
      rw [H a]; exact Int.toNat_natCast _
  · rename_i h
    constructor
    · intro hn; exact absurd hn (by simp)
    · intro H
      exfalso; apply h
      intro a
      rw [H a]
      exact ⟨Int.natCast_nonneg _, by exact_mod_cast (i a).isLt⟩

section Kernel
variable [Cert.KernelIdeal.Facts₀]

/-- the kernel's scatter-add: dimension numbers -/
local notation "DK" => Cert.KernelIdeal.scatter_S20000x256_S340000x1_S340000x256_1_0_0_1

theorem scatterK_siIdx (j : Cert.KernelIdeal.S340000x256.Idx) (c : Fin (DK).scatterDimsToOperandDims.length) :
    (DK).siIdx j c = ix2 (j 0) (0 : Fin 1) := by
  funext b
  refine Fin.ext ?_
  match b with
  | ⟨0, _⟩ => rfl
  | ⟨1, _⟩ =>
    have hc : c.val < 1 := c.isLt
    show c.val = 0
    omega

theorem scatterK_start0 (j : Cert.KernelIdeal.S340000x256.Idx) (idx : IVec Cert.KernelIdeal.S340000x1 32) :
    (DK).start j idx 0 = (idx (ix2 (j 0) (0 : Fin 1))).toInt := by
  unfold ScatterDims.start
  rw [dif_pos (show (0 : Fin 2) ∈ (DK).scatterDimsToOperandDims from List.mem_singleton.mpr rfl), scatterK_siIdx]
  rfl

theorem scatterK_start1 (j : Cert.KernelIdeal.S340000x256.Idx) (idx : IVec Cert.KernelIdeal.S340000x1 32) :
    (DK).start j idx 1 = 0 := by
  unfold ScatterDims.start
  rw [dif_neg (show (1 : Fin 2) ∉ (DK).scatterDimsToOperandDims from (by decide : (1 : Fin 2) ∉ [(0 : Fin 2)]))]

theorem scatterK_window0 (j : Cert.KernelIdeal.S340000x256.Idx) : (DK).window j 0 = 0 := by
  unfold ScatterDims.window
  rw [dif_neg (show (0 : Fin 2) ∉ (DK).sKept from (by decide : (0 : Fin 2) ∉ Shape.kept (s := Cert.KernelIdeal.S20000x256) [(0 : Fin 2)]))]

theorem scatterK_window1 (j : Cert.KernelIdeal.S340000x256.Idx) : (DK).window j 1 = (j 1).val := by
  unfold ScatterDims.window
  rw [dif_pos (show (1 : Fin 2) ∈ (DK).sKept from (by decide : (1 : Fin 2) ∈ Shape.kept (s := Cert.KernelIdeal.S20000x256) [(0 : Fin 2)]))]
  rfl

/-- where an update of the kernel's scatter-add lands -/
theorem scatterK_resultIdx_iff (j : Cert.KernelIdeal.S340000x256.Idx) (idx : IVec Cert.KernelIdeal.S340000x1 32)
    (n : Fin 20000) (q : Fin 256) :
    (DK).resultIdx? j idx = some (ix2 n q)
      ↔ (idx (ix2 (j 0) (0 : Fin 1))).toInt = (n.val : ℤ) ∧ j 1 = q := by
  rw [resultIdx?_eq_some_iff]
  constructor
  · intro H
    have h0 : (DK).start j idx 0 + ((DK).window j 0 : ℤ) = (n.val : ℤ) := H 0
    have h1 : (DK).start j idx 1 + ((DK).window j 1 : ℤ) = (q.val : ℤ) := H 1
    rw [scatterK_start0, scatterK_window0] at h0
    rw [scatterK_start1, scatterK_window1] at h1
    refine ⟨by simpa using h0, Fin.ext ?_⟩
    have h2 : ((j 1).val : ℤ) = (q.val : ℤ) := by simpa using h1
    exact_mod_cast h2
  · rintro ⟨h0, h1⟩ a
    match a with
    | ⟨0, _⟩ =>
      show (DK).start j idx 0 + ((DK).window j 0 : ℤ) = (n.val : ℤ)
      rw [scatterK_start0, scatterK_window0, h0]; simp
    | ⟨1, _⟩ =>
      show (DK).start j idx 1 + ((DK).window j 1 : ℤ) = (q.val : ℤ)
      rw [scatterK_start1, scatterK_window1, h1]; simp

/-- THE KERNEL'S SCATTER-ADD READ AT (n, q): the operand there plus the messages, at feature q, of the
    edges whose index is n. -/
theorem scatterK_apply (x : Cert.KernelIdeal.S20000x256.Idx → EReal) (idx : IVec Cert.KernelIdeal.S340000x1 32)
    (upd : Cert.KernelIdeal.S340000x256.Idx → EReal) (n : Fin 20000) (q : Fin 256) :
    Ideal.hostScatterAdd Cert.KernelIdeal.scatter_S20000x256_S340000x1_S340000x256_1_0_0_1 x idx upd (ix2 n q)
      = x (ix2 n q) + ∑ e ∈ Finset.univ.filter (fun e : Fin 340000 => (idx (ix2 e (0 : Fin 1))).toInt = (n.val : ℤ)),
          upd (ix2 e q) := by
  unfold Ideal.hostScatterAdd
  refine congrArg (fun z => x (ix2 n q) + z) ?_
  refine Finset.sum_nbij' (fun j => j 0) (fun e => ix2 e q) ?_ ?_ ?_ ?_ ?_
  · intro j hj
    have hj' := (Finset.mem_filter.1 hj).2
    exact Finset.mem_filter.2 ⟨Finset.mem_univ _, ((scatterK_resultIdx_iff j idx n q).1 hj').1⟩
  · intro e he
    have he' := (Finset.mem_filter.1 he).2
    exact Finset.mem_filter.2 ⟨Finset.mem_univ _, (scatterK_resultIdx_iff (ix2 e q) idx n q).2 ⟨he', rfl⟩⟩
  · intro j hj
    have h1 := ((scatterK_resultIdx_iff j idx n q).1 (Finset.mem_filter.1 hj).2).2
    show ix2 (j 0) q = j
    rw [← h1]; exact (eq_ix2 j).symm
  · intro e _
    rfl
  · intro j hj
    have h1 := ((scatterK_resultIdx_iff j idx n q).1 (Finset.mem_filter.1 hj).2).2
    show upd j = upd (ix2 (j 0) q)
    refine congrArg upd ?_
    rw [← h1]; exact eq_ix2 j

/-- the kernel's row gather: dimension numbers -/
local notation "GK" => Cert.KernelIdeal.gather_S20000x256_S340000x1_S340000x256_1_0_n_n_0_1_1256

theorem gatherK_siIdx (j : Cert.KernelIdeal.S340000x256.Idx) (c : Fin (GK).startIndexMap.length) :
    (GK).siIdx j c = ix2 (j 0) (0 : Fin 1) := by
  funext b
  refine Fin.ext ?_
  match b with
  | ⟨0, _⟩ => rfl
  | ⟨1, _⟩ =>
    have hc : c.val < 1 := c.isLt
    show c.val = 0
    omega

theorem gatherK_start0 (j : Cert.KernelIdeal.S340000x256.Idx) (idx : IVec Cert.KernelIdeal.S340000x1 32) :
    (GK).start j idx 0 = min (idx (ix2 (j 0) (0 : Fin 1))).toInt.toNat 19999 := by
  unfold GatherDims.start
  rw [dif_pos (show (0 : Fin 2) ∈ (GK).startIndexMap from List.mem_singleton.mpr rfl), gatherK_siIdx]
  rfl

theorem gatherK_start1 (j : Cert.KernelIdeal.S340000x256.Idx) (idx : IVec Cert.KernelIdeal.S340000x1 32) :
    (GK).start j idx 1 = 0 := by
  unfold GatherDims.start
  rw [dif_neg (show (1 : Fin 2) ∉ (GK).startIndexMap from (by decide : (1 : Fin 2) ∉ [(0 : Fin 2)]))]

theorem gatherK_off0 (j : Cert.KernelIdeal.S340000x256.Idx) : (GK).offCoord j 0 = 0 :=
  GatherDims.offCoord_eq_zero _ _ _ (fun h => ((GatherDims.mem_sKept _ _).mp h).1 (List.mem_singleton.mpr rfl))

theorem gatherK_off1 (j : Cert.KernelIdeal.S340000x256.Idx) : (GK).offCoord j 1 = (j 1).val := by
  unfold GatherDims.offCoord
  rw [dif_pos (show (1 : Fin 2) ∈ (GK).sKept from
    (by decide : (1 : Fin 2) ∈ Shape.kept (s := Cert.KernelIdeal.S20000x256) ([(0 : Fin 2)] ++ [])))]
  rfl

/-- THE KERNEL'S ROW GATHER READ AT (e, q): the operand's row the edge's start index names (read signed,
    clamped into the node range), at feature q. -/
theorem gatherK_apply {α : Type} (x : Cert.KernelIdeal.S20000x256.Idx → α) (idx : IVec Cert.KernelIdeal.S340000x1 32)
    (e : Fin 340000) (q : Fin 256) :
    Host.gather Cert.KernelIdeal.gather_S20000x256_S340000x1_S340000x256_1_0_n_n_0_1_1256 x idx (ix2 e q)
      = x (ix2 (srcRow idx e) q) := by
  unfold Host.gather
  refine congrArg x ?_
  funext a
  refine Fin.ext ?_
  match a with
  | ⟨0, _⟩ =>
    show (GK).start (ix2 e q) idx 0 + (GK).batchCoord (ix2 e q) 0 + (GK).offCoord (ix2 e q) 0 = (srcRow idx e).val
    rw [GatherDims.batchCoord_eq_zero _ _ _ List.not_mem_nil, gatherK_off0, gatherK_start0]
    rfl
  | ⟨1, _⟩ =>
    show (GK).start (ix2 e q) idx 1 + (GK).batchCoord (ix2 e q) 1 + (GK).offCoord (ix2 e q) 1 = q.val
    rw [GatherDims.batchCoord_eq_zero _ _ _ List.not_mem_nil, gatherK_off1, gatherK_start1]
    show 0 + 0 + q.val = q.val
    omega

end Kernel

section Reference
variable [Cert.ReferenceIdeal.Facts₀]

/-- the reference's scatter-add: dimension numbers -/
local notation "DR" => Cert.ReferenceIdeal.scatter_S20000x4x64_S340000x1_S340000x4x64_12_0_0_1

theorem scatterR_siIdx (j : Cert.ReferenceIdeal.S340000x4x64.Idx) (c : Fin (DR).scatterDimsToOperandDims.length) :
    (DR).siIdx j c = ix2 (j 0) (0 : Fin 1) := by
  funext b
  refine Fin.ext ?_
  match b with
  | ⟨0, _⟩ => rfl
  | ⟨1, _⟩ =>
    have hc : c.val < 1 := c.isLt
    show c.val = 0
    omega

theorem scatterR_start0 (j : Cert.ReferenceIdeal.S340000x4x64.Idx) (idx : IVec Cert.ReferenceIdeal.S340000x1 32) :
    (DR).start j idx 0 = (idx (ix2 (j 0) (0 : Fin 1))).toInt := by
  unfold ScatterDims.start
  rw [dif_pos (show (0 : Fin 3) ∈ (DR).scatterDimsToOperandDims from List.mem_singleton.mpr rfl), scatterR_siIdx]
  rfl

theorem scatterR_start1 (j : Cert.ReferenceIdeal.S340000x4x64.Idx) (idx : IVec Cert.ReferenceIdeal.S340000x1 32) :
    (DR).start j idx 1 = 0 := by
  unfold ScatterDims.start
  rw [dif_neg (show (1 : Fin 3) ∉ (DR).scatterDimsToOperandDims from (by decide : (1 : Fin 3) ∉ [(0 : Fin 3)]))]

theorem scatterR_start2 (j : Cert.ReferenceIdeal.S340000x4x64.Idx) (idx : IVec Cert.ReferenceIdeal.S340000x1 32) :
    (DR).start j idx 2 = 0 := by
  unfold ScatterDims.start
  rw [dif_neg (show (2 : Fin 3) ∉ (DR).scatterDimsToOperandDims from (by decide : (2 : Fin 3) ∉ [(0 : Fin 3)]))]

theorem scatterR_window0 (j : Cert.ReferenceIdeal.S340000x4x64.Idx) : (DR).window j 0 = 0 := by
  unfold ScatterDims.window
  rw [dif_neg (show (0 : Fin 3) ∉ (DR).sKept from
    (by decide : (0 : Fin 3) ∉ Shape.kept (s := Cert.ReferenceIdeal.S20000x4x64) [(0 : Fin 3)]))]

theorem scatterR_window1 (j : Cert.ReferenceIdeal.S340000x4x64.Idx) : (DR).window j 1 = (j 1).val := by
  unfold ScatterDims.window
  rw [dif_pos (show (1 : Fin 3) ∈ (DR).sKept from
    (by decide : (1 : Fin 3) ∈ Shape.kept (s := Cert.ReferenceIdeal.S20000x4x64) [(0 : Fin 3)]))]
  rfl

theorem scatterR_window2 (j : Cert.ReferenceIdeal.S340000x4x64.Idx) : (DR).window j 2 = (j 2).val := by
  unfold ScatterDims.window
  rw [dif_pos (show (2 : Fin 3) ∈ (DR).sKept from
    (by decide : (2 : Fin 3) ∈ Shape.kept (s := Cert.ReferenceIdeal.S20000x4x64) [(0 : Fin 3)]))]
  rfl

/-- where an update of the reference's scatter-add lands -/
theorem scatterR_resultIdx_iff (j : Cert.ReferenceIdeal.S340000x4x64.Idx) (idx : IVec Cert.ReferenceIdeal.S340000x1 32)
    (n : Fin 20000) (b : Fin 4) (o : Fin 64) :
    (DR).resultIdx? j idx = some (ix3 n b o)
      ↔ (idx (ix2 (j 0) (0 : Fin 1))).toInt = (n.val : ℤ) ∧ j 1 = b ∧ j 2 = o := by
  rw [resultIdx?_eq_some_iff]
  constructor
  · intro H
    have h0 : (DR).start j idx 0 + ((DR).window j 0 : ℤ) = (n.val : ℤ) := H 0
    have h1 : (DR).start j idx 1 + ((DR).window j 1 : ℤ) = (b.val : ℤ) := H 1
    have h2 : (DR).start j idx 2 + ((DR).window j 2 : ℤ) = (o.val : ℤ) := H 2
    rw [scatterR_start0, scatterR_window0] at h0
    rw [scatterR_start1, scatterR_window1] at h1
    rw [scatterR_start2, scatterR_window2] at h2
    refine ⟨by simpa using h0, Fin.ext ?_, Fin.ext ?_⟩
    · have h3 : ((j 1).val : ℤ) = (b.val : ℤ) := by simpa using h1
      exact_mod_cast h3
    · have h3 : ((j 2).val : ℤ) = (o.val : ℤ) := by simpa using h2
      exact_mod_cast h3
  · rintro ⟨h0, h1, h2⟩ a
    match a with
    | ⟨0, _⟩ =>
      show (DR).start j idx 0 + ((DR).window j 0 : ℤ) = (n.val : ℤ)
      rw [scatterR_start0, scatterR_window0, h0]; simp
    | ⟨1, _⟩ =>
      show (DR).start j idx 1 + ((DR).window j 1 : ℤ) = (b.val : ℤ)
      rw [scatterR_start1, scatterR_window1, h1]; simp
    | ⟨2, _⟩ =>
      show (DR).start j idx 2 + ((DR).window j 2 : ℤ) = (o.val : ℤ)
      rw [scatterR_start2, scatterR_window2, h2]; simp

/-- THE REFERENCE'S SCATTER-ADD READ AT (n, b, o): the operand there plus the messages, at (b, o), of the
    edges whose index is n. -/
theorem scatterR_apply (x : Cert.ReferenceIdeal.S20000x4x64.Idx → EReal) (idx : IVec Cert.ReferenceIdeal.S340000x1 32)
    (upd : Cert.ReferenceIdeal.S340000x4x64.Idx → EReal) (n : Fin 20000) (b : Fin 4) (o : Fin 64) :
    Ideal.hostScatterAdd Cert.ReferenceIdeal.scatter_S20000x4x64_S340000x1_S340000x4x64_12_0_0_1 x idx upd (ix3 n b o)
      = x (ix3 n b o) + ∑ e ∈ Finset.univ.filter (fun e : Fin 340000 => (idx (ix2 e (0 : Fin 1))).toInt = (n.val : ℤ)),
          upd (ix3 e b o) := by
  unfold Ideal.hostScatterAdd
  refine congrArg (fun z => x (ix3 n b o) + z) ?_
  refine Finset.sum_nbij' (fun j => j 0) (fun e => ix3 e b o) ?_ ?_ ?_ ?_ ?_
  · intro j hj
    have hj' := (Finset.mem_filter.1 hj).2
    exact Finset.mem_filter.2 ⟨Finset.mem_univ _, ((scatterR_resultIdx_iff j idx n b o).1 hj').1⟩
  · intro e he
    have he' := (Finset.mem_filter.1 he).2
    exact Finset.mem_filter.2 ⟨Finset.mem_univ _, (scatterR_resultIdx_iff (ix3 e b o) idx n b o).2 ⟨he', rfl, rfl⟩⟩
  · intro j hj
    have h1 := ((scatterR_resultIdx_iff j idx n b o).1 (Finset.mem_filter.1 hj).2).2
    show ix3 (j 0) b o = j
    rw [← h1.1, ← h1.2]; exact (eq_ix3 j).symm
  · intro e _
    rfl
  · intro j hj
    have h1 := ((scatterR_resultIdx_iff j idx n b o).1 (Finset.mem_filter.1 hj).2).2
    show upd j = upd (ix3 (j 0) b o)
    refine congrArg upd ?_
    rw [← h1.1, ← h1.2]; exact eq_ix3 j

/-- the reference's row gather: dimension numbers -/
local notation "GR" => Cert.ReferenceIdeal.gather_S4x20000x64_S340000x1_S4x340000x64_02_1_n_n_1_1_4164

theorem gatherR_siIdx (j : Cert.ReferenceIdeal.S4x340000x64.Idx) (c : Fin (GR).startIndexMap.length) :
    (GR).siIdx j c = ix2 (j 1) (0 : Fin 1) := by
  funext b
  refine Fin.ext ?_
  match b with
  | ⟨0, _⟩ => rfl
  | ⟨1, _⟩ =>
    have hc : c.val < 1 := c.isLt
    show c.val = 0
    omega

theorem gatherR_start0 (j : Cert.ReferenceIdeal.S4x340000x64.Idx) (idx : IVec Cert.ReferenceIdeal.S340000x1 32) :
    (GR).start j idx 0 = 0 := by
  unfold GatherDims.start
  rw [dif_neg (show (0 : Fin 3) ∉ (GR).startIndexMap from (by decide : (0 : Fin 3) ∉ [(1 : Fin 3)]))]

theorem gatherR_start1 (j : Cert.ReferenceIdeal.S4x340000x64.Idx) (idx : IVec Cert.ReferenceIdeal.S340000x1 32) :
    (GR).start j idx 1 = min (idx (ix2 (j 1) (0 : Fin 1))).toInt.toNat 19999 := by
  unfold GatherDims.start
  rw [dif_pos (show (1 : Fin 3) ∈ (GR).startIndexMap from List.mem_singleton.mpr rfl), gatherR_siIdx]
  rfl

theorem gatherR_start2 (j : Cert.ReferenceIdeal.S4x340000x64.Idx) (idx : IVec Cert.ReferenceIdeal.S340000x1 32) :
    (GR).start j idx 2 = 0 := by
  unfold GatherDims.start
  rw [dif_neg (show (2 : Fin 3) ∉ (GR).startIndexMap from (by decide : (2 : Fin 3) ∉ [(1 : Fin 3)]))]

theorem gatherR_off0 (j : Cert.ReferenceIdeal.S4x340000x64.Idx) : (GR).offCoord j 0 = (j 0).val := by
  unfold GatherDims.offCoord
  rw [dif_pos (show (0 : Fin 3) ∈ (GR).sKept from
    (by decide : (0 : Fin 3) ∈ Shape.kept (s := Cert.ReferenceIdeal.S4x20000x64) ([(1 : Fin 3)] ++ [])))]
  rfl

theorem gatherR_off1 (j : Cert.ReferenceIdeal.S4x340000x64.Idx) : (GR).offCoord j 1 = 0 :=
  GatherDims.offCoord_eq_zero _ _ _ (fun h => ((GatherDims.mem_sKept _ _).mp h).1 (List.mem_singleton.mpr rfl))

theorem gatherR_off2 (j : Cert.ReferenceIdeal.S4x340000x64.Idx) : (GR).offCoord j 2 = (j 2).val := by
  unfold GatherDims.offCoord
  rw [dif_pos (show (2 : Fin 3) ∈ (GR).sKept from
    (by decide : (2 : Fin 3) ∈ Shape.kept (s := Cert.ReferenceIdeal.S4x20000x64) ([(1 : Fin 3)] ++ [])))]
  rfl

/-- THE REFERENCE'S ROW GATHER READ AT (b, e, o): the operand's row the edge's start index names (read
    signed, clamped into the node range), at (b, o). -/
theorem gatherR_apply {α : Type} (x : Cert.ReferenceIdeal.S4x20000x64.Idx → α) (idx : IVec Cert.ReferenceIdeal.S340000x1 32)
    (b : Fin 4) (e : Fin 340000) (o : Fin 64) :
    Host.gather Cert.ReferenceIdeal.gather_S4x20000x64_S340000x1_S4x340000x64_02_1_n_n_1_1_4164 x idx (ix3 b e o)
      = x (ix3 b (srcRow idx e) o) := by
  unfold Host.gather
  refine congrArg x ?_
  funext a
  refine Fin.ext ?_
  match a with
  | ⟨0, _⟩ =>
    show (GR).start (ix3 b e o) idx 0 + (GR).batchCoord (ix3 b e o) 0 + (GR).offCoord (ix3 b e o) 0 = b.val
    rw [GatherDims.batchCoord_eq_zero _ _ _ List.not_mem_nil, gatherR_off0, gatherR_start0]
    show 0 + 0 + b.val = b.val
    omega
  | ⟨1, _⟩ =>
    show (GR).start (ix3 b e o) idx 1 + (GR).batchCoord (ix3 b e o) 1 + (GR).offCoord (ix3 b e o) 1 = (srcRow idx e).val
    rw [GatherDims.batchCoord_eq_zero _ _ _ List.not_mem_nil, gatherR_off1, gatherR_start1]
    rfl
  | ⟨2, _⟩ =>
    show (GR).start (ix3 b e o) idx 2 + (GR).batchCoord (ix3 b e o) 2 + (GR).offCoord (ix3 b e o) 2 = o.val
    rw [GatherDims.batchCoord_eq_zero _ _ _ List.not_mem_nil, gatherR_off2, gatherR_start2]
    show 0 + 0 + o.val = o.val
    omega

end Reference

end Cert.EdgeDims

end
-- ==== Proof.EdgeData.lean ====
/-
  The edge list read three ways: for edge e (the 320000 given edges, then one self loop per node) its target node, read as
  a signed integer; its source node, negative indices wrapped by the node count and the result clamped into the node range;
  and its weight, the product of the two end nodes' inverse square-root degrees. Both programs compute these three arrays by
  the same operations of the edge list alone.
-/
import proofs.«179696_j50448685859377_2_alg».proof.Proof.ReferenceReadP
import proofs.«179696_j50448685859377_2_alg».proof.Proof.EdgeDims

noncomputable section

namespace Cert.EdgeData

open Idealize.ShloMosaic Idealize.ShloMosaic.ValueIdx Cert.ReferenceIdeal

/-- The target index of every edge, as a [340000, 1] column. -/
def colIdx (x1 : (⟨S2x320000, .i32⟩ : BufTy).Contents (Elt Ideal)) : (⟨S340000x1, .i32⟩ : BufTy).Contents (Elt Ideal) :=
  Cert.ReferenceIdeal.ReadP.val_main_v44 (F := Ideal) x1
/-- The source index of every edge, a negative index wrapped by the node count, as a [340000, 1] column. -/
def rowIdx (x1 : (⟨S2x320000, .i32⟩ : BufTy).Contents (Elt Ideal)) : (⟨S340000x1, .i32⟩ : BufTy).Contents (Elt Ideal) :=
  Cert.ReferenceIdeal.ReadP.val_main_v37 (F := Ideal) x1
/-- The weight of every edge. -/
def edgeWt (x1 : (⟨S2x320000, .i32⟩ : BufTy).Contents (Elt Ideal)) : (⟨S340000, .f32⟩ : BufTy).Contents (Elt Ideal) :=
  Cert.ReferenceIdeal.ReadP.val_main_v31 (F := Ideal) x1

/-- The node edge e lands on, read signed: an edge whose target is outside the node range lands nowhere. -/
def tgt (x1 : (⟨S2x320000, .i32⟩ : BufTy).Contents (Elt Ideal)) (e : Fin 340000) : ℤ := (colIdx x1 (ix2 e (0 : Fin 1))).toInt
/-- The node edge e reads. -/
def src (x1 : (⟨S2x320000, .i32⟩ : BufTy).Contents (Elt Ideal)) (e : Fin 340000) : Fin 20000 := Cert.EdgeDims.srcRow (rowIdx x1) e
/-- The weight of edge e. -/
def wt (x1 : (⟨S2x320000, .i32⟩ : BufTy).Contents (Elt Ideal)) (e : Fin 340000) : EReal := edgeWt x1 (ix1 e)

end Cert.EdgeData

end
-- ==== Proof.KernelAgg.lean ====
/-
  The kernel's host operations before the region, as one term, read at one entry. The features [4, 20000, 64] are
  re-laid as [20000, 256] (node, batch and feature side by side); each edge gathers its source node's row and scales
  it by the edge's weight; the scaled rows are added into the rows of the edges' target nodes, starting from zeros;
  the result is laid back as [4, 20000, 64] and flattened to [80000, 64]. At row 20000 b + n and column k this is the
  zero word plus the sum, over the edges landing on node n, of the source node's feature (b, ., k) times the weight.
-/
import proofs.«179696_j50448685859377_2_alg».proof.KernelIdeal
import proofs.«179696_j50448685859377_2_alg».proof.Proof.Gen.KernelIdeal
import proofs.«179696_j50448685859377_2_alg».proof.Proof.EdgeData
import proofs.«179696_j50448685859377_2_alg».proof.Proof.EdgeDims
import proofs.«179696_j50448685859377_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelAgg

open Cert.KernelIdeal Cert.KernelIdeal.Facts₀ Idealize.ShloMosaic Idealize.ShloMosaic.ValueIdx

/-- The host operations before the region, as one term of the features and the edge list. -/
def aggFlat (x0 : (⟨S4x20000x64, .f32⟩ : BufTy).Contents (Elt Ideal)) (x1 : (⟨S2x320000, .i32⟩ : BufTy).Contents (Elt Ideal)) :
    (⟨S80000x64, .f32⟩ : BufTy).Contents (Elt Ideal) :=
  shapeCast S80000x64 (transpose S4x20000x64 [1, 0, 2] (shapeCast S20000x4x64
    (Host.scatterAdd (F := Ideal) (φ := .f32) scatter_S20000x256_S340000x1_S340000x256_1_0_0_1
      (broadcastInDim S20000x256 ![] bcast_S_S20000x256 (constant (F := Ideal) S_ .f32 0x00000000#32))
      (Cert.EdgeData.colIdx x1)
      (mulf (F := Ideal) (Host.gather gather_S20000x256_S340000x1_S340000x256_1_0_n_n_0_1_1256
          (shapeCast S20000x256 (transpose S20000x4x64 [1, 0, 2] x0 transposes_S4x20000x64_S20000x4x64_1_0_2) shapeCasts_S20000x4x64_S20000x256)
          (Cert.EdgeData.rowIdx x1))
        (broadcastInDim S340000x256 ![0, 1] bcast_S340000x1_S340000x256_0_1
          (broadcastInDim S340000x1 ![0] bcast_S340000_S340000x1_0 (Cert.EdgeData.edgeWt x1)))))
    shapeCasts_S20000x256_S20000x4x64) transposes_S20000x4x64_S4x20000x64_1_0_2) shapeCasts_S4x20000x64_S80000x64

section Layout
variable {α : Type}

/-- The flattening [4, 20000, 64] → [80000, 64] at (20000 b + n, k) reads (b, n, k). -/
theorem flat_apply (T : S4x20000x64.Idx → α) (hc : S4x20000x64.ShapeCasts S80000x64) (b : Fin 4) (n : Fin 20000) (k : Fin 64)
    (h : b.val * 20000 + n.val < 80000) :
    shapeCast S80000x64 T hc (ix2 ⟨b.val * 20000 + n.val, h⟩ k) = T (ix3 b n k) := by
  refine shapeCast_apply T hc _ (ix3 b n k) ?_
  rw [Shape.rowMajor_val_three, Shape.rowMajor_val_two]
  rfl

/-- The exchange of the first two axes [20000, 4, 64] → [4, 20000, 64] at (b, n, k) reads (n, b, k). -/
theorem swap_back_apply (T : S20000x4x64.Idx → α) (ht : S20000x4x64.Transposes [1, 0, 2] S4x20000x64) (b : Fin 4) (n : Fin 20000)
    (k : Fin 64) : transpose S4x20000x64 [1, 0, 2] T ht (ix3 b n k) = T (ix3 n b k) := by
  refine transpose_apply _ T ht _ (ix3 n b k) (fun a => ?_)
  match a with
  | ⟨0, _⟩ => rfl
  | ⟨1, _⟩ => rfl
  | ⟨2, _⟩ => rfl

/-- The exchange of the first two axes [4, 20000, 64] → [20000, 4, 64] at (n, b, k) reads (b, n, k). -/
theorem swap_apply (T : S4x20000x64.Idx → α) (ht : S4x20000x64.Transposes [1, 0, 2] S20000x4x64) (b : Fin 4) (n : Fin 20000)
    (k : Fin 64) : transpose S20000x4x64 [1, 0, 2] T ht (ix3 n b k) = T (ix3 b n k) := by
  refine transpose_apply _ T ht _ (ix3 b n k) (fun a => ?_)
  match a with
  | ⟨0, _⟩ => rfl
  | ⟨1, _⟩ => rfl
  | ⟨2, _⟩ => rfl

/-- The splitting [20000, 256] → [20000, 4, 64] at (n, b, k) reads (n, 64 b + k). -/
theorem split_apply (T : S20000x256.Idx → α) (hc : S20000x256.ShapeCasts S20000x4x64) (b : Fin 4) (n : Fin 20000) (k : Fin 64)
    (hq : b.val * 64 + k.val < 256) :
    shapeCast S20000x4x64 T hc (ix3 n b k) = T (ix2 n ⟨b.val * 64 + k.val, hq⟩) := by
  refine shapeCast_apply T hc _ (ix2 n ⟨b.val * 64 + k.val, hq⟩) ?_
  rw [Shape.rowMajor_val_three, Shape.rowMajor_val_two]
  show n.val * 256 + (b.val * 64 + k.val) = (n.val * 4 + b.val) * 64 + k.val
  omega

/-- The merging [20000, 4, 64] → [20000, 256] at (n, 64 b + k) reads (n, b, k). -/
theorem merge_apply (T : S20000x4x64.Idx → α) (hc : S20000x4x64.ShapeCasts S20000x256) (b : Fin 4) (n : Fin 20000) (k : Fin 64)
    (hq : b.val * 64 + k.val < 256) :
    shapeCast S20000x256 T hc (ix2 n ⟨b.val * 64 + k.val, hq⟩) = T (ix3 n b k) := by
  refine shapeCast_apply T hc _ (ix3 n b k) ?_
  rw [Shape.rowMajor_val_three, Shape.rowMajor_val_two]
  show (n.val * 4 + b.val) * 64 + k.val = n.val * 256 + (b.val * 64 + k.val)
  omega

/-- A vector over the edges, made a column and repeated along 256 features, at (e, q) reads the vector at e. -/
theorem spread_apply (w : S340000.Idx → α) (h1 : S340000.BroadcastsInDim S340000x1 (![0] : Fin 1 → Fin S340000x1.rank))
    (h2 : S340000x1.BroadcastsInDim S340000x256 (![0, 1] : Fin 2 → Fin S340000x256.rank)) (e : Fin 340000) (q : Fin 256) :
    broadcastInDim S340000x256 ![0, 1] h2 (broadcastInDim S340000x1 ![0] h1 w) (ix2 e q) = w (ix1 e) := by
  rw [broadcastInDim_apply _ h2 _ (ix2 e q) (ix2 e (0 : Fin 1)) (fun a => by
    match a with
    | ⟨0, _⟩ => rfl
    | ⟨1, _⟩ => rfl)]
  exact broadcastInDim_apply _ h1 w (ix2 e (0 : Fin 1)) (ix1 e) (fun a => by
    match a with
    | ⟨0, _⟩ => rfl)

/-- The features re-laid as [20000, 256], at (s, 64 b + k): the feature (b, s, k). -/
theorem relaid_apply (x0 : S4x20000x64.Idx → α) (ht : S4x20000x64.Transposes [1, 0, 2] S20000x4x64)
    (hc : S20000x4x64.ShapeCasts S20000x256) (b : Fin 4) (s : Fin 20000) (k : Fin 64) (hq : b.val * 64 + k.val < 256) :
    shapeCast S20000x256 (transpose S20000x4x64 [1, 0, 2] x0 ht) hc (ix2 s ⟨b.val * 64 + k.val, hq⟩) = x0 (ix3 b s k) := by
  rw [merge_apply, swap_apply]

end Layout

/-- The zero start of the accumulation, at (n, q): the zero word. -/
theorem zeros_apply (n : Fin 20000) (q : Fin 256) :
    broadcastInDim S20000x256 ![] bcast_S_S20000x256 (constant (F := Ideal) S_ .f32 0x00000000#32) (ix2 n q)
      = Ideal.ofBits .f32 0x00000000#32 :=
  broadcastInDim_apply _ bcast_S_S20000x256 (constant (F := Ideal) S_ .f32 0x00000000#32) (ix2 n q) ix0 (fun a => a.elim0)

/-- One message, at (e, q): the source row of edge e at feature q, times the weight of e. -/
theorem message_apply (X : FVec Ideal S20000x256 .f32) (ri : IVec S340000x1 32) (w : FVec Ideal S340000 .f32)
    (e : Fin 340000) (q : Fin 256) :
    mulf (F := Ideal) (Host.gather gather_S20000x256_S340000x1_S340000x256_1_0_n_n_0_1_1256 X ri)
        (broadcastInDim S340000x256 ![0, 1] bcast_S340000x1_S340000x256_0_1
          (broadcastInDim S340000x1 ![0] bcast_S340000_S340000x1_0 w)) (ix2 e q)
      = X (ix2 (Cert.EdgeDims.srcRow ri e) q) * w (ix1 e) := by
  rw [mulf_apply, Cert.EdgeDims.gatherK_apply, spread_apply]

/-- The accumulation, at (n, q): the start there plus the messages, at feature q, of the edges landing on node n. -/
theorem scatter_apply (Z : FVec Ideal S20000x256 .f32) (ci : IVec S340000x1 32) (upd : FVec Ideal S340000x256 .f32)
    (n : Fin 20000) (q : Fin 256) :
    Host.scatterAdd (F := Ideal) (φ := .f32) scatter_S20000x256_S340000x1_S340000x256_1_0_0_1 Z ci upd (ix2 n q)
      = Z (ix2 n q) + ∑ e ∈ Finset.univ.filter (fun e : Fin 340000 => (ci (ix2 e (0 : Fin 1))).toInt = (n.val : ℤ)),
          upd (ix2 e q) :=
  Cert.EdgeDims.scatterK_apply Z ci upd n q

/-- THE HOST OPERATIONS AT (20000 b + n, k): the zero word plus the sum, over the edges landing on node n, of the
    source node's feature (b, ., k) times the edge's weight. -/
theorem aggFlat_apply (x0 : (⟨S4x20000x64, .f32⟩ : BufTy).Contents (Elt Ideal)) (x1 : (⟨S2x320000, .i32⟩ : BufTy).Contents (Elt Ideal))
    (b : Fin 4) (n : Fin 20000) (k : Fin 64) (h : b.val * 20000 + n.val < 80000) :
    aggFlat x0 x1 (ix2 ⟨b.val * 20000 + n.val, h⟩ k)
      = Cert.GraphLayer.aggregate (Ideal.ofBits .f32 0x00000000#32) (Cert.EdgeData.tgt x1) (Cert.EdgeData.wt x1)
          (fun e => x0 (ix3 b (Cert.EdgeData.src x1 e) k)) n.val := by
  have hq : b.val * 64 + k.val < 256 := by have := b.isLt; have := k.isLt; omega
  unfold aggFlat
  rw [flat_apply, swap_back_apply, split_apply _ _ b n k hq, scatter_apply, zeros_apply]
  unfold Cert.GraphLayer.aggregate
  refine congrArg (fun z => Ideal.ofBits .f32 0x00000000#32 + z) ?_
  refine Finset.sum_congr rfl (fun e _ => ?_)
  rw [message_apply, relaid_apply]
  rfl

end Cert.KernelAgg

end
-- ==== Proof.KernelResult.lean ====
/-
  The kernel's whole result as one function of the nine arguments, read at one entry. The aggregated features, a flat
  [80000, 64] array, go row by row through the dense layer, the bias and the perceptron; the [80000, 128] rows are
  recast to [4, 20000, 128]. At (b, n, o) this reads row 20000 b + n, whose entries are the aggregation at node n of
  batch b: the layer with the linear map applied after the aggregation.
-/
import proofs.«179696_j50448685859377_2_alg».proof.KernelIdeal
import proofs.«179696_j50448685859377_2_alg».proof.Proof.Gen.KernelIdeal
import proofs.«179696_j50448685859377_2_alg».proof.Proof.KernelAgg
import proofs.«179696_j50448685859377_2_alg».proof.Proof.EdgeData
import proofs.«179696_j50448685859377_2_alg».proof.Proof.Spec
import Idealize.ShloMosaic.Lib.Pipeline.Value
import Idealize.ShloMosaic.Lib.ValueIdx

noncomputable section

open scoped BigOperators

namespace Cert.KernelResult

open Cert.KernelIdeal Cert.KernelIdeal.Facts₀ Idealize.ShloMosaic Idealize.ShloMosaic.ValueIdx

/-- Every row of the flat [80000, 64] array through the dense layer, the bias and the perceptron. -/
def rowsFn (A : S80000x64.Idx → EReal) (W2 : S64x64.Idx → EReal) (bias : S64.Idx → EReal) (W4 W5 W6 W7 : S64x64.Idx → EReal)
    (W8 : S128x128.Idx → EReal) : S80000x128.Idx → EReal :=
  fun i => Cert.GraphLayer.head W4 W5 W6 W7 W8 (fun c => Cert.GraphLayer.dense W2 (fun k => A (ix2 (i 0) k)) c + bias (ix1 c)) (i 1)

/-- The kernel's result: the rows of the aggregated features through rowsFn, recast to [4, 20000, 128]. -/
def resultFn (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 x5 x6 x7 : (⟨S64x64, .f32⟩ : BufTy).Contents (Elt Ideal)) (x8 : (⟨S128x128, .f32⟩ : BufTy).Contents (Elt Ideal)) :
    (⟨S4x20000x128, .f32⟩ : BufTy).Contents (Elt Ideal) :=
  shapeCast S4x20000x128 (rowsFn (Cert.KernelAgg.aggFlat x0 x1) x2 x3 x4 x5 x6 x7 x8) shapeCasts_S80000x128_S4x20000x128

/-- The recasting [80000, 128] → [4, 20000, 128] at (b, n, o) reads (20000 b + n, o). -/
theorem unflat_apply {α : Type} (T : S80000x128.Idx → α) (hc : S80000x128.ShapeCasts S4x20000x128) (b : Fin 4) (n : Fin 20000)
    (o : Fin 128) (h : b.val * 20000 + n.val < 80000) :
    shapeCast S4x20000x128 T hc (ix3 b n o) = T (ix2 ⟨b.val * 20000 + n.val, h⟩ o) := by
  refine shapeCast_apply T hc _ (ix2 ⟨b.val * 20000 + n.val, h⟩ o) ?_
  rw [Shape.rowMajor_val_three, Shape.rowMajor_val_two]
  rfl

/-- THE RESULT AT (b, n, o): the layer with the linear map applied after the aggregation, at batch b, node n, position o. -/
theorem kernel_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 x5 x6 x7 : (⟨S64x64, .f32⟩ : BufTy).Contents (Elt Ideal)) (x8 : (⟨S128x128, .f32⟩ : BufTy).Contents (Elt Ideal))
    (b : Fin 4) (n : Fin 20000) (o : Fin 128) :
    resultFn x0 x1 x2 x3 x4 x5 x6 x7 x8 (ix3 b n o)
      = Cert.GraphLayer.layerAfter x0 (Cert.EdgeData.src x1) (Cert.EdgeData.tgt x1) (Cert.EdgeData.wt x1) x2 x4 x5 x6 x7 x3 x8 b n o := by
  have h : b.val * 20000 + n.val < 80000 := by have := b.isLt; have := n.isLt; omega
  unfold resultFn
  rw [unflat_apply _ _ b n o h]
  unfold rowsFn Cert.GraphLayer.layerAfter
  refine congrArg (fun pre : Fin 64 → EReal => Cert.GraphLayer.head x4 x5 x6 x7 x8 pre o) (funext fun c => ?_)
  refine congrArg (fun v : Fin 64 → EReal => Cert.GraphLayer.dense x2 v c + x3 (ix1 c)) (funext fun k => ?_)
  exact Cert.KernelAgg.aggFlat_apply x0 x1 b n k h

end Cert.KernelResult

end
-- ==== Proof.KernelValue.lean ====
/-
  The kernel's run, read. The region's grid has twenty points; point t loads rows 4000 t … 4000 t + 3999 of the flat
  [80000, 64] array of aggregated features and the whole of every weight array, and writes rows 4000 t … 4000 t + 3999 of
  the [80000, 128] output: each output row is the perceptron row function of the same input row. The twenty blocks tile
  the output, so after the region it holds the row function of the whole input; the host operations before the region
  make that input out of the node features and the edge list, and the one after it recasts the output to [4, 20000, 128].
-/
import proofs.«179696_j50448685859377_2_alg».proof.Proof.Gen.KernelIdeal.Frame
import Idealize.ShloMosaic.Lib.Pipeline.Value
import Idealize.ShloMosaic.Lib.ValueIdx
import Idealize.ShloMosaic.Lib.StableHlo.Run
import proofs.«179696_j50448685859377_2_alg».proof.Proof.Spec
import proofs.«179696_j50448685859377_2_alg».proof.Proof.KernelRow
import proofs.«179696_j50448685859377_2_alg».proof.Proof.KernelAgg
import proofs.«179696_j50448685859377_2_alg».proof.Proof.KernelResult

set_option maxRecDepth 16384

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo
open Cert.KernelResult (rowsFn resultFn)
open Cert.KernelAgg (aggFlat)
open Cert.KernelRow (pay_apply)
open Cert.ReferenceIdeal.ReadP (val_main_v3 val_main_v6 val_main_v13 val_main_v15 val_main_v16)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the twenty grid points: the row blocks move with the point, the weights stay. -/
theorem idx_facts : ∀ t : Fin cfg0.N, win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A weight window's block is the whole array at every point. -/
theorem blk1 (c : Dev nD) (t : Fin cfg0.N) : iblk m c 1 t = V m c main_arg2 := by
  obtain ⟨-, -, -, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega
theorem blk2 (c : Dev nD) (t : Fin cfg0.N) : iblk m c 2 t = V m c main_arg3 := by
  obtain ⟨-, -, -, -, -, -, e0, -⟩ := idx_facts t
  funext y
  show V m c main_arg3 (((cfg0.win 2).blk t).view.emb y) = V m c main_arg3 y
  refine congrArg _ (funext fun a => Fin.ext ?_)
  match a with
  | ⟨0, _⟩ => show win0_2.index t (0 : Fin 1) * 64 + 1 * (y 0).val = (y 0).val; omega
theorem blk3 (c : Dev nD) (t : Fin cfg0.N) : iblk m c 3 t = V m c main_arg4 := by
  obtain ⟨-, -, -, -, -, -, -, e0, e1, -⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem blk4 (c : Dev nD) (t : Fin cfg0.N) : iblk m c 4 t = V m c main_arg5 := by
  obtain ⟨-, -, -, -, -, -, -, -, -, e0, e1, -⟩ := idx_facts t
  funext y
  show V m c main_arg5 (((cfg0.win 4).blk t).view.emb y) = V m c main_arg5 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem blk5 (c : Dev nD) (t : Fin cfg0.N) : iblk m c 5 t = V m c main_arg6 := by
  obtain ⟨-, -, -, -, -, -, -, -, -, -, -, e0, e1, -⟩ := idx_facts t
  funext y
  show V m c main_arg6 (((cfg0.win 5).blk t).view.emb y) = V m c main_arg6 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega
theorem blk6 (c : Dev nD) (t : Fin cfg0.N) : iblk m c 6 t = V m c main_arg7 := by
  obtain ⟨-, -, -, -, -, -, -, -, -, -, -, -, -, e0, e1, -⟩ := idx_facts t
  funext y
  show V m c main_arg7 (((cfg0.win 6).blk t).view.emb y) = V m c main_arg7 y
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega
theorem blk7 (c : Dev nD) (t : Fin cfg0.N) : iblk m c 7 t = V m c main_arg8 := by
  obtain ⟨-, -, -, -, -, -, -, -, -, -, -, -, -, -, -, e0, e1⟩ := idx_facts t
  funext y
  show V m c main_arg8 (((cfg0.win 7).blk t).view.emb y) = V m c main_arg8 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Row p of the point's input block is row 4000 t + p of the flat array. -/
theorem blk0_apply (c : Dev nD) (t : Fin cfg0.N) (p : Fin 4000) (k : Fin 64) (h : t.val * 4000 + p.val < 80000) :
    iblk m c 0 t (ix2 p k) = V m c main_v48 (ix2 ⟨t.val * 4000 + p.val, h⟩ k) := by
  obtain ⟨e0, e1, -⟩ := idx_facts t
  show V m c main_v48 (((cfg0.win 0).blk t).view.emb (ix2 p k)) = _
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 64 + 1 * k.val = k.val; omega

/-- Entry (p, o) of the point's output block sits at row 4000 t + p of the output array. -/
theorem emb8 (t : Fin cfg0.N) (p : Fin 4000) (o : Fin 128) (h : t.val * 4000 + p.val < 80000) :
    ((cfg0.win 8).blk t).view.emb (ix2 p o) = ix2 ⟨t.val * 4000 + p.val, h⟩ o := by
  obtain ⟨-, -, e0, e1, -⟩ := idx_facts t
  refine funext fun a => Fin.ext ?_
  match a with
  | ⟨0, _⟩ => show win0_8.index t (0 : Fin 2) * 4000 + 1 * p.val = t.val * 4000 + p.val; omega
  | ⟨1, _⟩ => show win0_8.index t (1 : Fin 2) * 128 + 1 * o.val = o.val; omega

/-- What point t writes back is block t of the row function of the arrays as the region finds them. -/
theorem flushed_eq (c : Dev nD) (t : Fin cfg0.N) :
    (dats m 0 c).flushed 8 t = ((cfg0.win 8).blk t).view.read (Elt Ideal)
      (rowsFn (V m c main_v48) (V m c main_arg2) (V m c main_arg3) (V m c main_arg4) (V m c main_arg5) (V m c main_arg6)
        (V m c main_arg7) (V m c main_arg8)) := by
  show (cfg0.win 8).cut (grid0.coords t) ((dats m 0 c).after 8 t) = _
  rw [after0_8]
  unfold out0_8
  rw [View.canon_unit_zero hz2]
  simp only [View.ld_unit_zero (S := S4000x64) hz2, View.ld_unit_zero (S := S64x64) hz2, View.ld_unit_zero (S := S64) hz1,
    View.ld_unit_zero (S := S128x128) hz2]
  funext j
  obtain ⟨p, o, rfl⟩ : ∃ (p : Fin 4000) (o : Fin 128), j = ix2 p o := ⟨j 0, j 1, eq_ix2 j⟩
  have ht : t.val < 20 := lt_of_lt_of_eq t.isLt N_0
  have h : t.val * 4000 + p.val < 80000 := by have := p.isLt; omega
  show k0_pay1 (F := Ideal) (iblk m c 0 t) (iblk m c 1 t) (iblk m c 2 t) (iblk m c 3 t) (iblk m c 4 t) (iblk m c 5 t) (iblk m c 6 t) (iblk m c 7 t) (ix2 p o)
    = rowsFn (V m c main_v48) (V m c main_arg2) (V m c main_arg3) (V m c main_arg4) (V m c main_arg5) (V m c main_arg6)
        (V m c main_arg7) (V m c main_arg8) (((cfg0.win 8).blk t).view.emb (ix2 p o))
  refine (pay_apply (iblk m c 0 t) (iblk m c 1 t) (iblk m c 2 t) (iblk m c 3 t) (iblk m c 4 t) (iblk m c 5 t) (iblk m c 6 t) (iblk m c 7 t) p o).trans ?_
  rw [emb8 t p o h, blk1, blk2, blk3, blk4, blk5, blk6, blk7]
  unfold rowsFn
  simp only [blk0_apply m c t p _ h]

/-- An index of the output array is in point t's block iff its row is among the point's 4000 rows. -/
theorem mem_blk8 (t : Fin cfg0.N) (i : S80000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v49).slice (win0_8.rect t)).set ↔ _
  rw [View.set_slice_whole, Rect.mem_set_unit]
  exact Iff.rfl

/-- The twenty blocks cover the output array: row r is in the block of point r / 4000. -/
theorem cover8 (i : S80000x128.Idx) : ∃ t : Fin cfg0.N, (cfg0.win 8).flush t = true ∧ i ∈ ((cfg0.win 8).blk t).view.set := by
  have hi0 : (i 0).val < 80000 := (i 0).isLt
  have hi1 : (i 1).val < 128 := (i 1).isLt
  let t : Fin cfg0.N := ⟨(i 0).val / 4000, by show _ < grid0.N; rw [N_0]; omega⟩
  obtain ⟨-, -, e0, e1, -⟩ := idx_facts t
  have e0' : win0_8.index t (0 : Fin 2) = (i 0).val / 4000 := e0
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 128 ≤ (i 1).val ∧ (i 1).val < win0_8.index t (1 : Fin 2) * 128 + 128; omega

/-- The output array after the region is the row function of the arrays as the region finds them. -/
theorem final8 (c : Dev nD) : (dats m 0 c).arrAt 8 cfg0.N
    = rowsFn (V m c main_v48) (V m c main_arg2) (V m c main_arg3) (V m c main_arg4) (V m c main_arg5) (V m c main_arg6)
        (V m c main_arg7) (V m c main_arg8) :=
  (dats m 0 c).arrAt_eq_of_cover 8 _ (fun t _ => flushed_eq m c t) cover8

/-- The contents after two lists of operations one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

/-- The contents after the first stretch of host operations (the two index lists, the degrees, their inverse roots). -/
abbrev W0 (c : Dev nD) : Valuation τ sig (Elt Ideal) := StableHlo.after hostOps0 (fun b => m (c, b))
/-- … after the second (the select between the inverse root and zero). -/
abbrev W1 (c : Dev nD) : Valuation τ sig (Elt Ideal) := StableHlo.after hostOps0_1 (W0 m c)

theorem W0_v3 (c : Dev nD) : W0 m c (Proc.devRef .tc main_v3) = val_main_v3 (F := Ideal) (m ((c : Thread nD τ).loc main_arg1)) := by
  show StableHlo.after hostOps0 _ (Proc.devRef .tc main_v3) = _
  after_results_simp
  rfl
theorem W0_v6 (c : Dev nD) : W0 m c (Proc.devRef .tc main_v6) = val_main_v6 (F := Ideal) (m ((c : Thread nD τ).loc main_arg1)) := by
  show StableHlo.after hostOps0 _ (Proc.devRef .tc main_v6) = _
  after_results_simp
  rfl
theorem W0_v12 (c : Dev nD) : W0 m c (Proc.devRef .tc main_v12) = val_main_v13 (F := Ideal) (m ((c : Thread nD τ).loc main_arg1)) := by
  show StableHlo.after hostOps0 _ (Proc.devRef .tc main_v12) = _
  after_results_simp
  rfl
theorem W0_v14 (c : Dev nD) : W0 m c (Proc.devRef .tc main_v14) = val_main_v15 (F := Ideal) (m ((c : Thread nD τ).loc main_arg1)) := by
  show StableHlo.after hostOps0 _ (Proc.devRef .tc main_v14) = _
  after_results_simp
  rfl
theorem W0_cst3 (c : Dev nD) : W0 m c (Proc.devRef .tc main_cst_3) = constant (F := Ideal) S_ .f32 0x00000000#32 := by
  show StableHlo.after hostOps0 _ (Proc.devRef .tc main_cst_3) = _
  after_results_simp
theorem W0_arg0 (c : Dev nD) : W0 m c (Proc.devRef .tc main_arg0) = m ((c : Thread nD τ).loc main_arg0) := by
  show StableHlo.after hostOps0 _ (Proc.devRef .tc main_arg0) = _
  after_results_simp

theorem W1_v15 (c : Dev nD) : W1 m c (Proc.devRef .tc main_v15) = val_main_v16 (F := Ideal) (m ((c : Thread nD τ).loc main_arg1)) := by
  show StableHlo.after hostOps0_1 (W0 m c) (Proc.devRef .tc main_v15) = _
  have e12 := W0_v12 m c
  have e14 := W0_v14 m c
  have e3 := W0_cst3 m c
  generalize W0 m c = W at e12 e14 e3
  after_results_simp
  rw [e12, e14, e3]
  simp only [cast_eq]
  rfl
theorem W1_v3 (c : Dev nD) : W1 m c (Proc.devRef .tc main_v3) = val_main_v3 (F := Ideal) (m ((c : Thread nD τ).loc main_arg1)) := by
  show StableHlo.after hostOps0_1 (W0 m c) (Proc.devRef .tc main_v3) = _
  have e := W0_v3 m c
  generalize W0 m c = W at e
  after_results_simp
  exact e
theorem W1_v6 (c : Dev nD) : W1 m c (Proc.devRef .tc main_v6) = val_main_v6 (F := Ideal) (m ((c : Thread nD τ).loc main_arg1)) := by
  show StableHlo.after hostOps0_1 (W0 m c) (Proc.devRef .tc main_v6) = _
  have e := W0_v6 m c
  generalize W0 m c = W at e
  after_results_simp
  exact e
theorem W1_arg0 (c : Dev nD) : W1 m c (Proc.devRef .tc main_arg0) = m ((c : Thread nD τ).loc main_arg0) := by
  show StableHlo.after hostOps0_1 (W0 m c) (Proc.devRef .tc main_arg0) = _
  have e := W0_arg0 m c
  generalize W0 m c = W at e
  after_results_simp
  exact e

/-- The region finds the flat aggregated features at its first operand: the three stretches of host operations before
    it, one after the other. -/
theorem V_main_v48 (c : Dev nD) :
    V m c main_v48 = aggFlat (m ((c : Thread nD τ).loc main_arg0)) (m ((c : Thread nD τ).loc main_arg1)) := by
  dsimp only [Gen.V, Gen.V0]
  simp only [List.flatten_cons, List.flatten_nil, List.append_nil]
  rw [after_append, after_append]
  show StableHlo.after hostOps0_2 (W1 m c) (Proc.devRef .tc main_v48) = _
  have e0 := W1_arg0 m c
  have e3 := W1_v3 m c
  have e6 := W1_v6 m c
  have e15 := W1_v15 m c
  generalize W1 m c = W at e0 e3 e6 e15
  after_results_simp
  rw [e0, e3, e6, e15]
  rfl

/-- The host operation after the region recasts the output array. -/
theorem tail_v50 (c : Dev nD) : Pipeline.afterTail₀ cfgs (dats m) 0 (V0 m) [hostOps1] c main_v50
    = shapeCast S4x20000x128 (rowsFn (V m c main_v48) (V m c main_arg2) (V m c main_arg3) (V m c main_arg4) (V m c main_arg5) (V m c main_arg6)
        (V m c main_arg7) (V m c main_arg8)) shapeCasts_S80000x128_S4x20000x128 := by
  unfold Pipeline.afterTail₀
  show StableHlo.after hostOps1 _ (Proc.devRef .tc main_v50) = _
  after_results
  have e : Pipeline.withArrays (cfgs 0).spec c (V0 m c) (fun w => (dats m 0 c).arrAt w (cfgs 0).N) (Proc.tc.devRef main_v49)
      = rowsFn (V m c main_v48) (V m c main_arg2) (V m c main_arg3) (V m c main_arg4) (V m c main_arg5) (V m c main_arg6)
        (V m c main_arg7) (V m c main_arg8) :=
    (Pipeline.withArrays_arr spec0 launch0.win.arr_inj c (V0 m c) (fun w => (dats m 0 c).arrAt w cfg0.N) 8).trans (final8 m c)
  rw [e]
  rfl

/-- The recast output, with every array the region finds written as a function of the arguments. -/
theorem result_of_args (c : Dev nD) :
    shapeCast S4x20000x128 (rowsFn (V m c main_v48) (V m c main_arg2) (V m c main_arg3) (V m c main_arg4) (V m c main_arg5) (V m c main_arg6)
        (V m c main_arg7) (V m c main_arg8)) shapeCasts_S80000x128_S4x20000x128
      = resultFn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [V_main_v48, V_main_arg2, V_main_arg3, V_main_arg4, V_main_arg5, V_main_arg6, V_main_arg7, V_main_arg8]
  rfl

/-- Every weakly fair execution of the kernel's program terminates with the result array at the result function of the
    arguments, the arguments unchanged. -/
theorem run : θ_run defs (onTc (τ := τ) (main (F := Ideal))) ⟨m, fun _ => 0, ρ⟩ fun r => ∀ c : Dev nD,
      r.2.mem ((c.tc : Thread nD τ).loc main_v50)
        = resultFn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v50 (Pipeline.mem_restRefs_of main_v50 (by decide) (by decide))).trans ((tail_v50 m c).trans (result_of_args m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.RunValue

end
-- ==== Proof.RefValue.lean ====
/-
  The reference's aggregation read at one entry. For batch b, node n and output position o it is the zero word plus the
  sum, over the edges whose target is n, of the source node's row passed through the first linear map, at o, times the
  edge's weight: the linear map is applied to every node's row first, the mapped rows are gathered by source node, scaled
  by the edge weights and added up by target node.
-/
import proofs.«179696_j50448685859377_2_alg».proof.Proof.ReferenceReadP
import proofs.«179696_j50448685859377_2_alg».proof.Proof.Gen.ReferenceIdeal
import proofs.«179696_j50448685859377_2_alg».proof.Proof.EdgeDims
import proofs.«179696_j50448685859377_2_alg».proof.Proof.EdgeData
import proofs.«179696_j50448685859377_2_alg».proof.Proof.Spec
import Idealize.ShloMosaic.Lib.Pipeline.Value
import Idealize.ShloMosaic.Lib.ValueIdx
import Idealize.ShloMosaic.PureOps.Ideal.Laws

noncomputable section

open scoped BigOperators

namespace Cert.RefValue

open Cert.ReferenceIdeal Cert.ReferenceIdeal.ReadP Idealize.ShloMosaic Idealize.ShloMosaic.ValueIdx

/-- The first linear map read at (b, s, o): the dense layer of row (b, s) against the rows of the weights. -/
theorem v7_apply (x0 : (⟨S4x20000x64, .f32⟩ : BufTy).Contents (Elt Ideal)) (x2 : (⟨S64x64, .f32⟩ : BufTy).Contents (Elt Ideal))
    (b : Fin 4) (s : Fin 20000) (o : Fin 64) :
    val_main_v7 (F := Ideal) x0 x2 (ix3 b s o) = Cert.GraphLayer.dense x2 (fun k => x0 (ix3 b s k)) o := by
  rw [val_main_v7_apply]
  unfold Cert.GraphLayer.dense
  refine Finset.sum_congr rfl fun k _ => ?_
  have el : lidx_main_v7 (ix3 b s o) k = ix3 b s k := funext fun a => Fin.ext (by
    match a with
    | ⟨0, _⟩ => rfl
    | ⟨1, _⟩ => rfl
    | ⟨2, _⟩ => rfl)
  have er : ridx_main_v7 (ix3 b s o) k = ix2 o k := funext fun a => Fin.ext (by
    match a with
    | ⟨0, _⟩ => rfl
    | ⟨1, _⟩ => rfl)
  rw [el, er]

/-- The gathered rows read at (b, e, o): the mapped row of the edge's source node. -/
theorem v38_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (b : Fin 4) (e : Fin 340000) (o : Fin 64) :
    val_main_v38 (F := Ideal) x0 x1 x2 (ix3 b e o)
      = Cert.GraphLayer.dense x2 (fun k => x0 (ix3 b (Cert.EdgeData.src x1 e) k)) o := by
  unfold val_main_v38
  refine (Cert.EdgeDims.gatherR_apply (α := EReal) (val_main_v7 (F := Ideal) x0 x2) (val_main_v37 (F := Ideal) x1) b e o).trans ?_
  exact v7_apply x0 x2 b (Cert.EdgeData.src x1 e) o

/-- The broadcast edge weights read at (b, e, o): the weight of edge e. -/
theorem v40_apply (x1 : (⟨S2x320000, .i32⟩ : BufTy).Contents (Elt Ideal)) (b : Fin 4) (e : Fin 340000) (o : Fin 64) :
    val_main_v40 (F := Ideal) x1 (ix3 b e o) = Cert.EdgeData.wt x1 e := by
  rw [val_main_v40_apply, val_main_v39_apply]
  unfold Cert.EdgeData.wt Cert.EdgeData.edgeWt
  refine congrArg (val_main_v31 (F := Ideal) x1) ?_
  funext a
  refine Fin.ext ?_
  match a with
  | ⟨0, _⟩ => rfl

/-- The messages read at (e, b, o): the mapped source row times the edge weight. -/
theorem v42_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (e : Fin 340000) (b : Fin 4) (o : Fin 64) :
    val_main_v42 (F := Ideal) x0 x1 x2 (ix3 e b o)
      = Cert.GraphLayer.dense x2 (fun k => x0 (ix3 b (Cert.EdgeData.src x1 e) k)) o * Cert.EdgeData.wt x1 e := by
  rw [val_main_v42_apply]
  have hi : idx_main_v42 (ix3 e b o) = ix3 b e o := funext fun a => Fin.ext (by
    match a with
    | ⟨0, _⟩ => rfl
    | ⟨1, _⟩ => rfl
    | ⟨2, _⟩ => rfl)
  rw [hi, val_main_v41_apply, v38_apply, v40_apply]
  rfl

/-- The scatter's operand is the zero word everywhere. -/
theorem v43_apply (i : S20000x4x64.Idx) : val_main_v43 (F := Ideal) i = Ideal.ofBits .f32 0x00000000#32 := by
  rw [val_main_v43_apply, val_main_cst_9_apply]
  rfl

/-- THE AGGREGATION READ AT (b, n, o): the zero word plus the sum, over the edges landing on n, of the mapped source
    row at o times the edge weight. -/
theorem refAgg_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (b : Fin 4) (n : Fin 20000) (o : Fin 64) :
    val_main_v46 (F := Ideal) x0 x1 x2 (ix3 b n o)
      = Cert.GraphLayer.aggregate (Ideal.ofBits .f32 0x00000000#32) (Cert.EdgeData.tgt x1) (Cert.EdgeData.wt x1)
          (fun e => Cert.GraphLayer.dense x2 (fun k => x0 (ix3 b (Cert.EdgeData.src x1 e) k)) o) n.val := by
  rw [val_main_v46_apply]
  have hi : idx_main_v46 (ix3 b n o) = ix3 n b o := funext fun a => Fin.ext (by
    match a with
    | ⟨0, _⟩ => rfl
    | ⟨1, _⟩ => rfl
    | ⟨2, _⟩ => rfl)
  rw [hi]
  unfold val_main_v45
  refine (Cert.EdgeDims.scatterR_apply (val_main_v43 (F := Ideal)) (val_main_v44 (F := Ideal) x1)
    (val_main_v42 (F := Ideal) x0 x1 x2) n b o).trans ?_
  unfold Cert.GraphLayer.aggregate
  rw [v43_apply]
  refine congrArg (fun z => Ideal.ofBits .f32 0x00000000#32 + z) ?_
  refine Finset.sum_congr rfl fun e _ => ?_
  exact v42_apply x0 x1 x2 e b o

end Cert.RefValue

end
-- ==== Proof.RefResult.lean ====
/-
  The reference's whole result read at one entry. After the aggregation of the edges' messages (each message the first
  dense layer of the source node's row), the reference adds the bias, spells the logistic function as the quotient
  1 / (1 + e^(-x)), applies the two parallel pairs of dense layers, joins them side by side, applies the last dense
  layer and takes the maximum with zero. At (b, n, o) this is the layer with the linear map applied before the
  aggregation, at batch b, node n, position o.
-/
import proofs.«179696_j50448685859377_2_alg».proof.Proof.ReferenceReadP
import proofs.«179696_j50448685859377_2_alg».proof.Proof.Gen.ReferenceIdeal
import proofs.«179696_j50448685859377_2_alg».proof.Proof.RefValue
import proofs.«179696_j50448685859377_2_alg».proof.Proof.EdgeData
import proofs.«179696_j50448685859377_2_alg».proof.Proof.Spec
import Idealize.ShloMosaic.Lib.Pipeline.Value
import Idealize.ShloMosaic.Lib.ValueIdx
import Idealize.ShloMosaic.PureOps.Ideal.Laws

noncomputable section

open scoped BigOperators

namespace Cert.RefResult

open Cert.ReferenceIdeal Cert.ReferenceIdeal.ReadP Idealize.ShloMosaic Idealize.ShloMosaic.ValueIdx

/-- The bias read at (b, n, c): entry c of the bias row. -/
theorem v48_apply (x3 : (⟨S64, .f32⟩ : BufTy).Contents (Elt Ideal)) (b : Fin 4) (n : Fin 20000) (c : Fin 64) :
    val_main_v48 (F := Ideal) x3 (ix3 b n c) = x3 (ix1 c) := by
  rw [val_main_v48_apply, val_main_v47_apply]
  refine congrArg x3 ?_
  funext a
  refine Fin.ext ?_
  match a with
  | ⟨0, _⟩ => rfl

/-- The f32 word of 1.0 is the extended real 1. -/
theorem ofBits_one_f32 : Ideal.ofBits .f32 0x3F800000#32 = (1 : EReal) :=
  IdealRules.sign_bit.ideal_onePat .f32

/-- The quotient 1 / (1 + e^(-x)) the program spells out is the logistic function of the sum before it. -/
theorem v55_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal)) (i : S4x20000x64.Idx) :
    val_main_v55 (F := Ideal) x0 x1 x2 x3 i = Ideal.logistic (val_main_v49 (F := Ideal) x0 x1 x2 x3 i) := by
  rw [val_main_v55_apply, val_main_v54_apply, val_main_cst_11_apply, val_main_v53_apply, val_main_v52_apply,
    val_main_cst_10_apply, val_main_v51_apply, val_main_v50_apply]
  generalize val_main_v49 (F := Ideal) x0 x1 x2 x3 i = y
  show Ideal.div (Ideal.ofBits .f32 0x3F800000#32) (Ideal.ofBits .f32 0x3F800000#32 + Ideal.exp (-y)) = _
  rw [ofBits_one_f32]
  rfl

/-- The sum before the logistic function read at (b, n, c): the aggregation plus the bias. -/
theorem v49_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (b : Fin 4) (n : Fin 20000) (c : Fin 64) :
    val_main_v49 (F := Ideal) x0 x1 x2 x3 (ix3 b n c)
      = Cert.GraphLayer.aggregate (Ideal.ofBits .f32 0x00000000#32) (Cert.EdgeData.tgt x1) (Cert.EdgeData.wt x1)
          (fun e => Cert.GraphLayer.dense x2 (fun k => x0 (ix3 b (Cert.EdgeData.src x1 e) k)) c) n.val + x3 (ix1 c) := by
  rw [val_main_v49_apply, Cert.RefValue.refAgg_apply, v48_apply]
  rfl

/-- A dense layer of the head read at (b, n, o), for each of the four 64-wide ones and the 128-wide last one. -/
theorem v56_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (b : Fin 4) (n : Fin 20000) (o : Fin 64) :
    val_main_v56 (F := Ideal) x0 x1 x2 x3 x4 (ix3 b n o)
      = Cert.GraphLayer.dense x4 (fun k => val_main_v55 (F := Ideal) x0 x1 x2 x3 (ix3 b n k)) o := by
  rw [val_main_v56_apply]
  unfold Cert.GraphLayer.dense
  refine Finset.sum_congr rfl fun k _ => ?_
  have el : lidx_main_v56 (ix3 b n o) k = ix3 b n k := funext fun a => Fin.ext (by
    match a with
    | ⟨0, _⟩ => rfl
    | ⟨1, _⟩ => rfl
    | ⟨2, _⟩ => rfl)
  have er : ridx_main_v56 (ix3 b n o) k = ix2 o k := funext fun a => Fin.ext (by
    match a with
    | ⟨0, _⟩ => rfl
    | ⟨1, _⟩ => rfl)
  rw [el, er]

theorem v57_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (b : Fin 4) (n : Fin 20000) (o : Fin 64) :
    val_main_v57 (F := Ideal) x0 x1 x2 x3 x4 x5 (ix3 b n o)
      = Cert.GraphLayer.dense x5 (fun k => val_main_v56 (F := Ideal) x0 x1 x2 x3 x4 (ix3 b n k)) o := by
  rw [val_main_v57_apply]
  unfold Cert.GraphLayer.dense
  refine Finset.sum_congr rfl fun k _ => ?_
  have el : lidx_main_v57 (ix3 b n o) k = ix3 b n k := funext fun a => Fin.ext (by
    match a with
    | ⟨0, _⟩ => rfl
    | ⟨1, _⟩ => rfl
    | ⟨2, _⟩ => rfl)
  have er : ridx_main_v57 (ix3 b n o) k = ix2 o k := funext fun a => Fin.ext (by
    match a with
    | ⟨0, _⟩ => rfl
    | ⟨1, _⟩ => rfl)
  rw [el, er]

theorem v58_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x6 : (⟨S64x64, .f32⟩ : BufTy).Contents (Elt Ideal)) (b : Fin 4) (n : Fin 20000) (o : Fin 64) :
    val_main_v58 (F := Ideal) x0 x1 x2 x3 x6 (ix3 b n o)
      = Cert.GraphLayer.dense x6 (fun k => val_main_v55 (F := Ideal) x0 x1 x2 x3 (ix3 b n k)) o := by
  rw [val_main_v58_apply]
  unfold Cert.GraphLayer.dense
  refine Finset.sum_congr rfl fun k _ => ?_
  have el : lidx_main_v58 (ix3 b n o) k = ix3 b n k := funext fun a => Fin.ext (by
    match a with
    | ⟨0, _⟩ => rfl
    | ⟨1, _⟩ => rfl
    | ⟨2, _⟩ => rfl)
  have er : ridx_main_v58 (ix3 b n o) k = ix2 o k := funext fun a => Fin.ext (by
    match a with
    | ⟨0, _⟩ => rfl
    | ⟨1, _⟩ => rfl)
  rw [el, er]

theorem v59_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x6 x7 : (⟨S64x64, .f32⟩ : BufTy).Contents (Elt Ideal)) (b : Fin 4) (n : Fin 20000) (o : Fin 64) :
    val_main_v59 (F := Ideal) x0 x1 x2 x3 x6 x7 (ix3 b n o)
      = Cert.GraphLayer.dense x7 (fun k => val_main_v58 (F := Ideal) x0 x1 x2 x3 x6 (ix3 b n k)) o := by
  rw [val_main_v59_apply]
  unfold Cert.GraphLayer.dense
  refine Finset.sum_congr rfl fun k _ => ?_
  have el : lidx_main_v59 (ix3 b n o) k = ix3 b n k := funext fun a => Fin.ext (by
    match a with
    | ⟨0, _⟩ => rfl
    | ⟨1, _⟩ => rfl
    | ⟨2, _⟩ => rfl)
  have er : ridx_main_v59 (ix3 b n o) k = ix2 o k := funext fun a => Fin.ext (by
    match a with
    | ⟨0, _⟩ => rfl
    | ⟨1, _⟩ => rfl)
  rw [el, er]

theorem v61_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 x5 x6 x7 : (⟨S64x64, .f32⟩ : BufTy).Contents (Elt Ideal)) (x8 : (⟨S128x128, .f32⟩ : BufTy).Contents (Elt Ideal))
    (b : Fin 4) (n : Fin 20000) (o : Fin 128) :
    val_main_v61 (F := Ideal) x0 x1 x2 x3 x4 x5 x6 x7 x8 (ix3 b n o)
      = Cert.GraphLayer.dense x8 (fun k => val_main_v60 (F := Ideal) x0 x1 x2 x3 x4 x5 x6 x7 (ix3 b n k)) o := by
  rw [val_main_v61_apply]
  unfold Cert.GraphLayer.dense
  refine Finset.sum_congr rfl fun k _ => ?_
  have el : lidx_main_v61 (ix3 b n o) k = ix3 b n k := funext fun a => Fin.ext (by
    match a with
    | ⟨0, _⟩ => rfl
    | ⟨1, _⟩ => rfl
    | ⟨2, _⟩ => rfl)
  have er : ridx_main_v61 (ix3 b n o) k = ix2 o k := funext fun a => Fin.ext (by
    match a with
    | ⟨0, _⟩ => rfl
    | ⟨1, _⟩ => rfl)
  rw [el, er]

/-- The concatenation read at (b, n, k): the upper branch's row below position 64, the lower branch's from there. -/
theorem v60_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 x5 x6 x7 : (⟨S64x64, .f32⟩ : BufTy).Contents (Elt Ideal)) (b : Fin 4) (n : Fin 20000) (k : Fin 128) :
    val_main_v60 (F := Ideal) x0 x1 x2 x3 x4 x5 x6 x7 (ix3 b n k)
      = Cert.GraphLayer.cat (fun c => val_main_v57 (F := Ideal) x0 x1 x2 x3 x4 x5 (ix3 b n c))
          (fun c => val_main_v59 (F := Ideal) x0 x1 x2 x3 x6 x7 (ix3 b n c)) k := by
  unfold val_main_v60 Cert.GraphLayer.cat
  by_cases h : k.val < 64
  · rw [dif_pos h]
    exact concatenate_pair_apply_left (s₁ := S4x20000x64) (s₂ := S4x20000x64) _ _ _ _ (ix3 b n k) rfl (ix3 b n (⟨k.val, h⟩ : Fin 64)) (fun a => by
      match a with
      | ⟨0, _⟩ => rfl
      | ⟨1, _⟩ => rfl
      | ⟨2, _⟩ => rfl)
  · rw [dif_neg h]
    exact concatenate_pair_apply_right (s₁ := S4x20000x64) (s₂ := S4x20000x64) _ _ _ _ (ix3 b n k) rfl rfl
      (ix3 b n (⟨k.val - 64, by have := k.isLt; omega⟩ : Fin 64)) (fun a ha => by
      match a, ha with
      | ⟨0, _⟩, _ => rfl
      | ⟨1, _⟩, _ => rfl
      | ⟨2, _⟩, ha => exact absurd rfl ha)
      (by show k.val - 64 + 64 = k.val; omega)

/-- THE REFERENCE'S RESULT READ AT (b, n, o): the layer with the linear map applied before the aggregation. -/
theorem ref_apply (x0 : (⟨S4x20000x64, .f32⟩ : BufTy).Contents (Elt Ideal)) (x1 : (⟨S2x320000, .i32⟩ : BufTy).Contents (Elt Ideal))
    (x2 : (⟨S64x64, .f32⟩ : BufTy).Contents (Elt Ideal)) (x3 : (⟨S64, .f32⟩ : BufTy).Contents (Elt Ideal))
    (x4 x5 x6 x7 : (⟨S64x64, .f32⟩ : BufTy).Contents (Elt Ideal)) (x8 : (⟨S128x128, .f32⟩ : BufTy).Contents (Elt Ideal))
    (b : Fin 4) (n : Fin 20000) (o : Fin 128) :
    val_main_v62 (F := Ideal) x0 x1 x2 x3 x4 x5 x6 x7 x8 (ix3 b n o)
      = Cert.GraphLayer.layerBefore x0 (Cert.EdgeData.src x1) (Cert.EdgeData.tgt x1) (Cert.EdgeData.wt x1)
          x2 x4 x5 x6 x7 x3 x8 b n o := by
  have hfst : (fun c : Fin 64 => val_main_v55 (F := Ideal) x0 x1 x2 x3 (ix3 b n c))
      = fun c => Ideal.logistic
          (Cert.GraphLayer.aggregate (Ideal.ofBits .f32 0x00000000#32) (Cert.EdgeData.tgt x1) (Cert.EdgeData.wt x1)
            (fun e => Cert.GraphLayer.dense x2 (fun k => x0 (ix3 b (Cert.EdgeData.src x1 e) k)) c) n.val + x3 (ix1 c)) := by
    funext c
    rw [v55_apply, v49_apply]
  have h57 : (fun c : Fin 64 => val_main_v57 (F := Ideal) x0 x1 x2 x3 x4 x5 (ix3 b n c))
      = Cert.GraphLayer.dense x5 (Cert.GraphLayer.dense x4
          fun c => val_main_v55 (F := Ideal) x0 x1 x2 x3 (ix3 b n c)) := by
    funext c
    rw [v57_apply]
    refine congrArg (fun v => Cert.GraphLayer.dense x5 v c) ?_
    funext k
    exact v56_apply x0 x1 x2 x3 x4 b n k
  have h59 : (fun c : Fin 64 => val_main_v59 (F := Ideal) x0 x1 x2 x3 x6 x7 (ix3 b n c))
      = Cert.GraphLayer.dense x7 (Cert.GraphLayer.dense x6
          fun c => val_main_v55 (F := Ideal) x0 x1 x2 x3 (ix3 b n c)) := by
    funext c
    rw [v59_apply]
    refine congrArg (fun v => Cert.GraphLayer.dense x7 v c) ?_
    funext k
    exact v58_apply x0 x1 x2 x3 x6 b n k
  have h60 : (fun k : Fin 128 => val_main_v60 (F := Ideal) x0 x1 x2 x3 x4 x5 x6 x7 (ix3 b n k))
      = Cert.GraphLayer.cat
          (Cert.GraphLayer.dense x5 (Cert.GraphLayer.dense x4 fun c => val_main_v55 (F := Ideal) x0 x1 x2 x3 (ix3 b n c)))
          (Cert.GraphLayer.dense x7 (Cert.GraphLayer.dense x6 fun c => val_main_v55 (F := Ideal) x0 x1 x2 x3 (ix3 b n c))) := by
    funext k
    rw [v60_apply, h57, h59]
  rw [val_main_v62_apply, val_main_call1_v0_apply, val_main_call1_cst_apply, v61_apply, h60, hfst]
  rfl

end Cert.RefResult

end
-- ==== Proof.Finite.lean ====
/-
  Finiteness. From the precondition (every float input satisfies |x| < +∞ at every entry) the node features and the first
  weight matrix are real numbers entrywise: |x| = max x (-x) is below +∞ exactly when x is neither +∞ nor -∞, and an
  extended real that is neither of the two is a real number. And every edge weight is a real number whatever the edge list
  is: it is a product of two entries of the array of inverse square-root degrees, each entry of which is either zero or a
  real degree (zero plus a finite sum of ones) to the real power -1/2.
-/
import proofs.«179696_j50448685859377_2_alg».proof.Pre_finite_inputs
import proofs.«179696_j50448685859377_2_alg».proof.Proof.Gen.Pre_finite_inputs
import proofs.«179696_j50448685859377_2_alg».proof.Proof.EdgeData
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The result shape of a reduction over all axes has exactly one index. -/
instance : Subsingleton Cert.Pre_finite_inputs.S_.Idx := ⟨fun a b => funext fun d => d.elim0⟩

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞. -/
theorem ofBits_inf : Ideal.ofBits .f32 0x7F800000#32 = ⊤ := by simp [Ideal.ofBits, Ideal.ieee]

/-- The comparison |x| < +∞ coming out true says x is a real number. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  by_cases hlt : max (x : EReal) (-(x : EReal)) < ⊤
  · exact real_of_abs_lt_top x hlt
  · exfalso
    simp [Ideal.cmp, hlt] at h

/-- From the precondition: every node feature and every entry of the first weight matrix is a real number. -/
theorem finite_of_pre (x0 : FVec Ideal Cert.Pre_finite_inputs.S4x20000x64 .f32) (x1 : IVec Cert.Pre_finite_inputs.S2x320000 32)
    (x2 : FVec Ideal Cert.Pre_finite_inputs.S64x64 .f32) (x3 : FVec Ideal Cert.Pre_finite_inputs.S64 .f32)
    (x4 x5 x6 x7 : FVec Ideal Cert.Pre_finite_inputs.S64x64 .f32) (x8 : FVec Ideal Cert.Pre_finite_inputs.S128x128 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x2 i = (r : EReal)) := by
  have h0 := congrFun h ValueIdx.ix0
  dsimp only [Cert.Pre_finite_inputs.fn, Cert.Pre_finite_inputs.fn_part1, Cert.Pre_finite_inputs.fn_part2] at h0
  -- the conjunction is nested to the left: peel the six outer conjuncts, then split the innermost pair
  have p33 := (IntOp.andi_eq_one.1 h0).1
  have p28 := (IntOp.andi_eq_one.1 p33).1
  have p23 := (IntOp.andi_eq_one.1 p28).1
  have p18 := (IntOp.andi_eq_one.1 p23).1
  have p13 := (IntOp.andi_eq_one.1 p18).1
  have p8 := (IntOp.andi_eq_one.1 p13).1
  obtain ⟨ha0, ha2⟩ := IntOp.andi_eq_one.1 p8
  refine ⟨fun i => ?_, fun i => ?_⟩
  · exact real_of_cmp (x0 i) (Host.reduce_andi_all _ _ _ _ _ ha0 i)
  · exact real_of_cmp (x2 i) (Host.reduce_andi_all _ _ _ _ _ ha2 i)

/-! ## Every edge weight is a real number -/

/-- A finite sum of real numbers is a real number. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r1, h1⟩ := hf a (Finset.mem_insert_self a s)
    obtain ⟨r2, h2⟩ := ih (fun j hj => hf j (Finset.mem_insert_of_mem hj))
    exact ⟨r1 + r2, by rw [Finset.sum_insert ha, h1, h2, EReal.coe_add]⟩

/-- An f32 word whose exponent field is not all ones denotes a real number. -/
theorem ofBits_real (b : BitVec 32) (hb : (b.extractLsb' 23 8).toNat ≠ 2 ^ 8 - 1) :
    ∃ r : ℝ, Ideal.ofBits .f32 b = (r : EReal) := by
  show ∃ r : ℝ, Ideal.ieee 8 23 b = (r : EReal)
  unfold Ideal.ieee
  simp only []
  rw [if_neg hb]
  split_ifs <;> exact ⟨_, rfl⟩

/-- A real base to a real exponent is a real number. -/
theorem pow_real (x y : ℝ) : ∃ r : ℝ, Ideal.pow (x : EReal) (y : EReal) = (r : EReal) := ⟨Real.rpow x y, rfl⟩

/-- An accumulating scatter of real updates into a real array is real at every index. -/
theorem scatterAdd_real {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) := by
  show ∃ r : ℝ, Ideal.hostScatterAdd d x idx upd i = (r : EReal)
  unfold Ideal.hostScatterAdd
  obtain ⟨r1, h1⟩ := hx i
  obtain ⟨r2, h2⟩ := sum_real (Finset.univ.filter (fun j => d.resultIdx? j idx = some i)) upd (fun j _ => hu j)
  exact ⟨r1 + r2, by rw [h1, h2, EReal.coe_add]⟩

/-- A choice between two real numbers is a real number. -/
theorem select_real (c : BitVec 1) (a b : EReal) (ha : ∃ r : ℝ, a = (r : EReal)) (hb : ∃ r : ℝ, b = (r : EReal)) :
    ∃ r : ℝ, Scalar.select c a b = (r : EReal) := by
  unfold Scalar.select
  split_ifs
  exacts [ha, hb]

/-- A product of two real numbers is a real number. -/
theorem mul_real (a b : EReal) (ha : ∃ r : ℝ, a = (r : EReal)) (hb : ∃ r : ℝ, b = (r : EReal)) :
    ∃ r : ℝ, a * b = (r : EReal) := by
  obtain ⟨r1, rfl⟩ := ha
  obtain ⟨r2, rfl⟩ := hb
  exact ⟨r1 * r2, (EReal.coe_mul r1 r2).symm⟩

theorem one_word_real : ∃ r : ℝ, Ideal.ofBits .f32 0x3F800000#32 = (r : EReal) := ofBits_real _ (by decide)
theorem zero_word_real : ∃ r : ℝ, Ideal.ofBits .f32 0x00000000#32 = (r : EReal) := ofBits_real _ (by decide)
theorem neg_half_word_real : ∃ r : ℝ, Ideal.ofBits .f32 0xBF000000#32 = (r : EReal) := ofBits_real _ (by decide)

/-- Every node's degree is a real number: zero plus a finite sum of ones. -/
theorem deg_real (x1 : (⟨Cert.ReferenceIdeal.S2x320000, .i32⟩ : BufTy).Contents (Elt Ideal)) (i : Cert.ReferenceIdeal.S20000.Idx) :
    ∃ r : ℝ, Cert.ReferenceIdeal.ReadP.val_main_v11 (F := Ideal) x1 i = (r : EReal) := by
  unfold Cert.ReferenceIdeal.ReadP.val_main_v11
  refine scatterAdd_real _ _ _ _ (fun i => ?_) (fun j => ?_) i
  · rw [Cert.ReferenceIdeal.ReadP.val_main_v9_apply, Cert.ReferenceIdeal.ReadP.val_main_cst_0_apply]
    exact zero_word_real
  · rw [Cert.ReferenceIdeal.ReadP.val_main_v8_apply, Cert.ReferenceIdeal.ReadP.val_main_cst_apply]
    exact one_word_real

/-- Every node's inverse square-root degree is a real number: either the degree to the power -1/2, a real base to a real
    exponent, or zero. -/
theorem dis_real (x1 : (⟨Cert.ReferenceIdeal.S2x320000, .i32⟩ : BufTy).Contents (Elt Ideal)) (i : Cert.ReferenceIdeal.S20000.Idx) :
    ∃ r : ℝ, Cert.ReferenceIdeal.ReadP.val_main_v16 (F := Ideal) x1 i = (r : EReal) := by
  rw [Cert.ReferenceIdeal.ReadP.val_main_v16_apply]
  refine select_real _ _ _ ?_ ?_
  · rw [Cert.ReferenceIdeal.ReadP.val_main_v15_apply, Cert.ReferenceIdeal.ReadP.val_main_v14_apply,
      Cert.ReferenceIdeal.ReadP.val_main_cst_2_apply]
    obtain ⟨d, hd⟩ := deg_real x1 i
    obtain ⟨y, hy⟩ := neg_half_word_real
    rw [hd]
    show ∃ r : ℝ, Ideal.pow (d : EReal) (Ideal.ofBits .f32 0xBF000000#32) = (r : EReal)
    rw [hy]
    exact pow_real d y
  · rw [Cert.ReferenceIdeal.ReadP.val_main_call0_v1_apply, Cert.ReferenceIdeal.ReadP.val_main_call0_v0_apply,
      Cert.ReferenceIdeal.ReadP.val_main_cst_3_apply]
    exact zero_word_real

/-- Every edge weight is a real number, whatever the edge list: it is the product of two entries of the array of inverse
    square-root degrees, and every entry of that array is real, so no gather index needs to be known. -/
theorem wt_finite (x1 : (⟨Cert.ReferenceIdeal.S2x320000, .i32⟩ : BufTy).Contents (Elt Ideal)) (e : Fin 340000) :
    ∃ r : ℝ, Cert.EdgeData.wt x1 e = (r : EReal) := by
  unfold Cert.EdgeData.wt Cert.EdgeData.edgeWt
  rw [Cert.ReferenceIdeal.ReadP.val_main_v31_apply]
  show ∃ r : ℝ, Cert.ReferenceIdeal.ReadP.val_main_v23 (F := Ideal) x1 (ix1 e)
      * Cert.ReferenceIdeal.ReadP.val_main_v30 (F := Ideal) x1 (ix1 e) = (r : EReal)
  refine mul_real _ _ ?_ ?_
  · unfold Cert.ReferenceIdeal.ReadP.val_main_v23 Host.gather
    exact dis_real x1 _
  · unfold Cert.ReferenceIdeal.ReadP.val_main_v30 Host.gather
    exact dis_real x1 _

end Cert.Finite

end
-- ==== Proof.Bridge.lean ====
/-
  The two programs compute one function. At one entry (b, n, o) the kernel's result is the perceptron head of the row
  "aggregate first, then the linear map", the reference's the head of the row "linear map first, then aggregate"; the
  two rows are equal when the node features, the first weight matrix and the edge weights are finite, because a finite
  double sum may be taken in either order and a real factor moves across a finite sum of reals.
-/
import proofs.«179696_j50448685859377_2_alg».proof.Proof.KernelResult
import proofs.«179696_j50448685859377_2_alg».proof.Proof.RefResult
import proofs.«179696_j50448685859377_2_alg».proof.Proof.Finite
import proofs.«179696_j50448685859377_2_alg».proof.Proof.Spec

noncomputable section

namespace Cert.Bridge

open Idealize.ShloMosaic Idealize.ShloMosaic.ValueIdx

/-- The kernel's result array is the reference's, for finite node features and a finite first weight matrix (the edge
    weights are finite for every edge list). -/
theorem result_eq (x0 : (⟨Cert.ReferenceIdeal.S4x20000x64, .f32⟩ : BufTy).Contents (Elt Ideal))
    (x1 : (⟨Cert.ReferenceIdeal.S2x320000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 x5 x6 x7 : (⟨Cert.ReferenceIdeal.S64x64, .f32⟩ : BufTy).Contents (Elt Ideal))
    (x8 : (⟨Cert.ReferenceIdeal.S128x128, .f32⟩ : BufTy).Contents (Elt Ideal))
    (hx0 : ∀ i, ∃ r : ℝ, x0 i = (r : EReal)) (hx2 : ∀ i, ∃ r : ℝ, x2 i = (r : EReal)) :
    Cert.KernelResult.resultFn x0 x1 x2 x3 x4 x5 x6 x7 x8
      = Cert.ReferenceIdeal.ReadP.val_main_v62 (F := Ideal) x0 x1 x2 x3 x4 x5 x6 x7 x8 := by
  funext i
  obtain ⟨b, n, o, rfl⟩ : ∃ (b : Fin 4) (n : Fin 20000) (o : Fin 128), i = ix3 b n o := ⟨i 0, i 1, i 2, eq_ix3 i⟩
  refine (Cert.KernelResult.kernel_apply x0 x1 x2 x3 x4 x5 x6 x7 x8 b n o).trans ?_
  refine Eq.trans ?_ (Cert.RefResult.ref_apply x0 x1 x2 x3 x4 x5 x6 x7 x8 b n o).symm
  exact congrFun (Cert.GraphLayer.layerAfter_eq_layerBefore x0 (Cert.EdgeData.src x1) (Cert.EdgeData.tgt x1) (Cert.EdgeData.wt x1)
    x2 x4 x5 x6 x7 x3 x8 b n hx0 (Cert.Finite.wt_finite x1) hx2) o

end Cert.Bridge

end
-- ==== Proof.lean ====
/-
  A graph-convolution layer with a two-branch perceptron head, as a fused kernel against its plain reference.

  The kernel aggregates the neighbours' features first (gather the source rows, scale by the edge weight, add into the
  target rows) and applies the first linear map inside the fused kernel, block of 4000 rows by block; the reference
  applies the linear map to every node first and aggregates the mapped rows. For finite features, weights and edge
  weights the two orders agree: a finite double sum, and a real factor moved across a finite sum. What follows the
  aggregation — bias, logistic function, two pairs of dense layers, concatenation, a last dense layer, positive part — is
  the same row function on both sides; the kernel's logistic unit is by definition one over one plus the exponential of
  the negated argument, which is how the reference spells it.

  The three frames: the kernel's two are the generated frame certificates; the reference's is its run with the result
  dropped. The idealization rewrote nothing, so the kernel's idealized program is its own text at the ideal instance.
-/
import proofs.«179696_j50448685859377_2_alg».proof.Defs
import proofs.«179696_j50448685859377_2_alg».proof.Proof.Gen.Kernel
import proofs.«179696_j50448685859377_2_alg».proof.Proof.Gen.Kernel.Frame
import proofs.«179696_j50448685859377_2_alg».proof.Proof.Gen.KernelIdeal
import proofs.«179696_j50448685859377_2_alg».proof.Proof.Gen.KernelIdeal.Frame
import proofs.«179696_j50448685859377_2_alg».proof.Proof.Gen.ReferenceIdeal
import proofs.«179696_j50448685859377_2_alg».proof.Proof.Gen.Pre_finite_inputs
import proofs.«179696_j50448685859377_2_alg».proof.Proof.ReferenceRunP
import proofs.«179696_j50448685859377_2_alg».proof.Proof.ReferenceReadP
import proofs.«179696_j50448685859377_2_alg».proof.Proof.KernelValue
import proofs.«179696_j50448685859377_2_alg».proof.Proof.Bridge
import proofs.«179696_j50448685859377_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both runs end, the kernel's result array at its function of the arguments
    and the reference's at its own; the precondition makes the node features and the first weight matrix finite, and then
    the two functions are one. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx0, hx2⟩ := Cert.Finite.finite_of_pre _ _ _ _ _ _ _ _ _ (hpre c)
  obtain ⟨h0, h1, h2, h3, h4, h5, h6, h7, h8⟩ := hagree c
  rw [Cert.ReferenceIdeal.ReadP.val_main_v62_eq, h0, h1, h2, h3, h4, h5, h6, h7, h8]
  exact (Cert.Bridge.result_eq _ _ _ _ _ _ _ _ _ hx0 hx2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
